-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2 : Shape := ⟨2, ![256, 2]⟩
abbrev S2x512 : Shape := ⟨2, ![2, 512]⟩
abbrev S262144x2 : Shape := ⟨2, ![262144, 2]⟩
abbrev S262144x1 : Shape := ⟨2, ![262144, 1]⟩
abbrev S_ : Shape := ⟨0, ![]⟩

class Facts : Prop where
  bcast_S_S256x2 : S_.BroadcastsInDim S256x2 (![] : Fin 0 → Fin S256x2.rank)
  reducesTo_S256x2_S_d0_1 : S256x2.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_
  bcast_S_S262144x2 : S_.BroadcastsInDim S262144x2 (![] : Fin 0 → Fin S262144x2.rank)
  reducesTo_S262144x2_S_d0_1 : S262144x2.ReducesTo [0, 1] S_
  bcast_S_S262144x1 : S_.BroadcastsInDim S262144x1 (![] : Fin 0 → Fin S262144x1.rank)
  reducesTo_S262144x1_S_d0_1 : S262144x1.ReducesTo [0, 1] S_

variable [Facts]

def fn_part1 {F : FTy → Type} [FloatOps F] (main_arg2 : FVec F S2x512 .f32) (main_arg4 : FVec F S262144x1 .f32) (main_v13 : IVec S_ 1) (main_v16 : IVec S262144x2 1) : IVec S_ 1 :=
  let main_c_5 : IVec S_ 1 := constantI S_ 1 1#1
  let main_v17 : IVec S_ 1 := (fun x v => Host.reduce IntOp.andi x v reducesTo_S262144x2_S_d0_1 h_S_) main_v16 main_c_5
  let main_v18 : IVec S_ 1 := andi main_v13 main_v17
  let main_v19 : FVec F S262144x1 .f32 := Host.absf main_arg4
  let main_cst_6 : FVec F S_ .f32 := constant S_ .f32 0x7F800000#32
  let main_v20 : FVec F S262144x1 .f32 := broadcastInDim S262144x1 ![] bcast_S_S262144x1 main_cst_6
  let main_v21 : IVec S262144x1 1 := cmpf .olt main_v19 main_v20
  let main_c_7 : IVec S_ 1 := constantI S_ 1 1#1
  let main_v22 : IVec S_ 1 := (fun x v => Host.reduce IntOp.andi x v reducesTo_S262144x1_S_d0_1 h_S_) main_v21 main_c_7
  let main_v23 : IVec S_ 1 := andi main_v18 main_v22
  let main_cst_8 : FVec F S_ .f32 := constant S_ .f32 0x00000000#32
  let main_v24 : FVec F S2x512 .f32 := broadcastInDim S2x512 ![] bcast_S_S2x512 main_cst_8
  let main_v25 : IVec S2x512 1 := cmpf .une main_arg2 main_v24
  let main_c_9 : IVec S_ 1 := constantI S_ 1 1#1
  let main_v26 : IVec S_ 1 := (fun x v => Host.reduce IntOp.andi x v reducesTo_S2x512_S_d0_1 h_S_) main_v25 main_c_9
  let main_v27 : IVec S_ 1 := andi main_v23 main_v26
  main_v27

def fn {F : FTy → Type} [FloatOps F] (main_arg0 : FVec F S256x2 .f32) (main_arg1 : FVec F S2x512 .f32) (main_arg2 : FVec F S2x512 .f32) (main_arg3 : FVec F S262144x2 .f32) (main_arg4 : FVec F S262144x1 .f32) : IVec S_ 1 :=
  let main_v0 : FVec F S256x2 .f32 := Host.absf main_arg0
  let main_cst : FVec F S_ .f32 := constant S_ .f32 0x7F800000#32
  let main_v1 : FVec F S256x2 .f32 := broadcastInDim S256x2 ![] bcast_S_S256x2 main_cst
  let main_v2 : IVec S256x2 1 := cmpf .olt main_v0 main_v1
  let main_c : IVec S_ 1 := constantI S_ 1 1#1
  let main_v3 : IVec S_ 1 := (fun x v => Host.reduce IntOp.andi x v reducesTo_S256x2_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  let main_v9 : FVec F S2x512 .f32 := Host.absf main_arg2
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S262144x2 .f32 := Host.absf main_arg3
  let main_cst_4 : FVec F S_ .f32 := constant S_ .f32 0x7F800000#32
  let main_v15 : FVec F S262144x2 .f32 := broadcastInDim S262144x2 ![] bcast_S_S262144x2 main_cst_4
  let main_v16 : IVec S262144x2 1 := cmpf .olt main_v14 main_v15
  fn_part1 (F := F) main_arg2 main_arg4 main_v13 main_v16
-- ==== Kernel.lean ====
abbrev S256x2 : Shape := ⟨2, ![256, 2]⟩
abbrev S2x512 : Shape := ⟨2, ![2, 512]⟩
abbrev S262144x2 : Shape := ⟨2, ![262144, 2]⟩
abbrev S262144x1 : Shape := ⟨2, ![262144, 1]⟩
abbrev S512x512x2 : Shape := ⟨3, ![512, 512, 2]⟩
abbrev S262144 : Shape := ⟨1, ![262144]⟩
abbrev S512x512 : Shape := ⟨2, ![512, 512]⟩
abbrev S512x512x1 : Shape := ⟨3, ![512, 512, 1]⟩
abbrev S512x1536 : Shape := ⟨2, ![512, 1536]⟩
abbrev S_ : Shape := ⟨0, ![]⟩
abbrev S8x512 : Shape := ⟨2, ![8, 512]⟩
abbrev S1x512 : Shape := ⟨2, ![1, 512]⟩
abbrev S1 : Shape := ⟨1, ![1]⟩
abbrev S256x1 : Shape := ⟨2, ![256, 1]⟩
abbrev S128x2 : Shape := ⟨2, ![128, 2]⟩
abbrev S128x1 : Shape := ⟨2, ![128, 1]⟩
abbrev S128x512 : Shape := ⟨2, ![128, 512]⟩
abbrev S128x1536 : Shape := ⟨2, ![128, 1536]⟩
abbrev S128 : Shape := ⟨1, ![128]⟩

abbrev nBuf : Space → Nat
  | .hbm => 38
  | .vmem => 6
  | .smem => 0
  | _ => 0

abbrev bufTy : (tb : Table) → Fin (tcTables nBuf tb) → BufTy
  | .hbm, ⟨0, _⟩ => ⟨S256x2, .f32⟩
  | .hbm, ⟨1, _⟩ => ⟨S2x512, .f32⟩
  | .hbm, ⟨2, _⟩ => ⟨S2x512, .f32⟩
  | .hbm, ⟨3, _⟩ => ⟨S262144x2, .f32⟩
  | .hbm, ⟨4, _⟩ => ⟨S262144x1, .f32⟩
  | .hbm, ⟨5, _⟩ => ⟨S512x512x2, .f32⟩
  | .hbm, ⟨6, _⟩ => ⟨S262144, .f32⟩
  | .hbm, ⟨7, _⟩ => ⟨S512x512, .f32⟩
  | .hbm, ⟨8, _⟩ => ⟨S512x512x1, .f32⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S512x512x1, .f32⟩
  | .hbm, ⟨13, _⟩ => ⟨S512x512, .f32⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S512x1536, .bf16⟩
  | .hbm, ⟨19, _⟩ => ⟨S_, .f32⟩
  | .hbm, ⟨20, _⟩ => ⟨S8x512, .f32⟩
  | .hbm, ⟨21, _⟩ => ⟨S1x512, .f32⟩
  | .hbm, ⟨22, _⟩ => ⟨S_, .i32⟩
  | .hbm, ⟨23, _⟩ => ⟨S1, .i32⟩
  | .hbm, ⟨24, _⟩ => ⟨S8x512, .f32⟩
  | .hbm, ⟨25, _⟩ => ⟨S1x512, .f32⟩
  | .hbm, ⟨26, _⟩ => ⟨S_, .i32⟩
  | .hbm, ⟨27, _⟩ => ⟨S1, .i32⟩
  | .hbm, ⟨28, _⟩ => ⟨S8x512, .f32⟩
  | .hbm, ⟨29, _⟩ => ⟨S1x512, .f32⟩
  | .hbm, ⟨30, _⟩ => ⟨S_, .i32⟩
  | .hbm, ⟨31, _⟩ => ⟨S1, .i32⟩
  | .hbm, ⟨32, _⟩ => ⟨S8x512, .f32⟩
  | .hbm, ⟨33, _⟩ => ⟨S1x512, .f32⟩
  | .hbm, ⟨34, _⟩ => ⟨S_, .i32⟩
  | .hbm, ⟨35, _⟩ => ⟨S1, .i32⟩
  | .hbm, ⟨36, _⟩ => ⟨S8x512, .f32⟩
  | .hbm, ⟨37, _⟩ => ⟨S256x1, .f32⟩
  | .local _ .vmem, ⟨0, _⟩ => ⟨S128x2, .f32⟩
  | .local _ .vmem, ⟨1, _⟩ => ⟨S128x2, .f32⟩
  | .local _ .vmem, ⟨2, _⟩ => ⟨S8x512, .f32⟩
  | .local _ .vmem, ⟨3, _⟩ => ⟨S512x1536, .bf16⟩
  | .local _ .vmem, ⟨4, _⟩ => ⟨S128x1, .f32⟩
  | .local _ .vmem, ⟨5, _⟩ => ⟨S128x1, .f32⟩
  | _, _ => ⟨S256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x2_S512x512x2 : S262144x2.ShapeCasts S512x512x2
  shapeCasts_S262144x1_S262144 : S262144x1.ShapeCasts S262144
  shapeCasts_S262144_S512x512 : S262144.ShapeCasts S512x512
  slices_S512x512x2_S512x512x1_0_0_0 : S512x512x2.Slices ![0, 0, 0] S512x512x1
  shapeCasts_S512x512x1_S512x512 : S512x512x1.ShapeCasts S512x512
  transposes_S512x512_S512x512_1_0 : S512x512.Transposes [1, 0] S512x512
  bitsLt_bf16_f32 : FTy.bits .bf16 < FTy.bits .f32
  slices_S512x512x2_S512x512x1_0_0_1 : S512x512x2.Slices ![0, 0, 1] S512x512x1
  concatenates_S512x512_S512x512_S512x512_S512x1536_d1 : Shape.Concatenates [S512x512, S512x512, S512x512] S512x1536 1
  bcast_S_S8x512 : S_.BroadcastsInDim S8x512 (![] : Fin 0 → Fin S8x512.rank)
  slices_S2x512_S1x512_0_0 : S2x512.Slices ![0, 0] S1x512
  bcast_S_S1 : S_.BroadcastsInDim S1 (![] : Fin 0 → Fin S1.rank)
  slices_S2x512_S1x512_1_0 : S2x512.Slices ![1, 0] S1x512
  inb_S128x2_S128x2_0_0 : ∀ a, (![0, 0] : Fin 2 → Nat) a + S128x2.size a ≤ S128x2.size a
  h_S128x2 : 0 < S128x2.numel
  slices_S128x2_o0_0_S128x1 : S128x2.Slices ![0, 0] S128x1
  slices_S128x2_o0_1_S128x1 : S128x2.Slices ![0, 1] S128x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S1x512 : S8x512.Slices ![0, 0] S1x512
  slices_S8x512_o1_0_S1x512 : S8x512.Slices ![1, 0] S1x512
  slices_S8x512_o2_0_S1x512 : S8x512.Slices ![2, 0] S1x512
  slices_S8x512_o3_0_S1x512 : S8x512.Slices ![3, 0] S1x512
  broadcasts_S128x1_S128x512 : S128x1.Broadcasts S128x512
  broadcasts_S1x512_S128x512 : S1x512.Broadcasts S128x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S128x1536_o0_0_S128x512 : S128x1536.Slices ![0, 0] S128x512
  slices_S128x1536_o0_512_S128x512 : S128x1536.Slices ![0, 512] S128x512
  slices_S128x1536_o0_1024_S128x512 : S128x1536.Slices ![0, 1024] S128x512
  reduces_S128x512_S128 : S128x512.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  scatter_S8x512_S1_S1x512_01_n_0_0_wf : ScatterDims.WF S8x512 S1 S1x512 [0, 1] [] [0] 0
  dot_S128x512_S512x1536_S128x1536_1_0_0_1_n_n_wf : DotDims.WF S128x512 S512x1536 S128x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2.size a ≤ S256x2.size a
  hwx0_0 : ∀ i : grid0.Coords, EltTy.bits .f32 = 32 ∨ (Rect.block (s := S256x2) S128x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S256x1.size a
  hwx0_3 : ∀ i : grid0.Coords, EltTy.bits .f32 = 32 ∨ (Rect.block (s := S256x1) S128x1.size (cc0_transform_3 i) (hinb0_3 i)).WholeWords (EltTy.packing .f32)

variable [Facts₀]

def scatter_S8x512_S1_S1x512_01_n_0_0 : ScatterDims S8x512 S1 S1x512 where
  updateWindowDims := [0, 1]
  insertedWindowDims := []
  scatterDimsToOperandDims := [0]
  indexVectorDim := 0
  wf := scatter_S8x512_S1_S1x512_01_n_0_0_wf
def dot_S128x512_S512x1536_S128x1536_1_0_0_1_n_n : DotDims S128x512 S512x1536 S128x1536 where
  lhsContracting := [1]
  rhsContracting := [0]
  lhsNonContracting := [0]
  rhsNonContracting := [1]
  lhsBatch := []
  rhsBatch := []
  wf := dot_S128x512_S512x1536_S128x1536_1_0_0_1_n_n_wf

abbrev win0_0 : Pipeline.Window sig grid0 :=
  Pipeline.Window.ofSpec (Memref.whole main_arg0) S128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x2 : Shape := ⟨2, ![256, 2]⟩
abbrev S2x512 : Shape := ⟨2, ![2, 512]⟩
abbrev S262144x2 : Shape := ⟨2, ![262144, 2]⟩
abbrev S262144x1 : Shape := ⟨2, ![262144, 1]⟩
abbrev S256x2x1 : Shape := ⟨3, ![256, 2, 1]⟩
abbrev S1x2x512 : Shape := ⟨3, ![1, 2, 512]⟩
abbrev S256x2x512 : Shape := ⟨3, ![256, 2, 512]⟩
abbrev S256x1x512 : Shape := ⟨3, ![256, 1, 512]⟩
abbrev S256x512 : Shape := ⟨2, ![256, 512]⟩
abbrev S256x512x1 : Shape := ⟨3, ![256, 512, 1]⟩
abbrev S256x512x512 : Shape := ⟨3, ![256, 512, 512]⟩
abbrev S256x262144 : Shape := ⟨2, ![256, 262144]⟩
abbrev S_ : Shape := ⟨0, ![]⟩
abbrev S256 : Shape := ⟨1, ![256]⟩
abbrev S256x1 : Shape := ⟨2, ![256, 1]⟩
abbrev S2x262144 : Shape := ⟨2, ![2, 262144]⟩
abbrev S262144 : Shape := ⟨1, ![262144]⟩
abbrev S1x262144 : Shape := ⟨2, ![1, 262144]⟩

abbrev nBuf : Space → Nat
  | .hbm => 41
  | .vmem => 0
  | .smem => 0
  | _ => 0

abbrev bufTy : (tb : Table) → Fin (tcTables nBuf tb) → BufTy
  | .hbm, ⟨0, _⟩ => ⟨S256x2, .f32⟩
  | .hbm, ⟨1, _⟩ => ⟨S2x512, .f32⟩
  | .hbm, ⟨2, _⟩ => ⟨S2x512, .f32⟩
  | .hbm, ⟨3, _⟩ => ⟨S262144x2, .f32⟩
  | .hbm, ⟨4, _⟩ => ⟨S262144x1, .f32⟩
  | .hbm, ⟨5, _⟩ => ⟨S256x2x1, .f32⟩
  | .hbm, ⟨6, _⟩ => ⟨S1x2x512, .f32⟩
  | .hbm, ⟨7, _⟩ => ⟨S256x2x512, .f32⟩
  | .hbm, ⟨8, _⟩ => ⟨S256x2x512, .f32⟩
  | .hbm, ⟨9, _⟩ => ⟨S256x2x512, .f32⟩
  | .hbm, ⟨10, _⟩ => ⟨S1x2x512, .f32⟩
  | .hbm, ⟨11, _⟩ => ⟨S256x2x512, .f32⟩
  | .hbm, ⟨12, _⟩ => ⟨S256x2x512, .f32⟩
  | .hbm, ⟨13, _⟩ => ⟨S256x2x512, .f32⟩
  | .hbm, ⟨14, _⟩ => ⟨S256x2x512, .f32⟩
  | .hbm, ⟨15, _⟩ => ⟨S256x2x512, .f32⟩
  | .hbm, ⟨16, _⟩ => ⟨S256x1x512, .f32⟩
  | .hbm, ⟨17, _⟩ => ⟨S256x512, .f32⟩
  | .hbm, ⟨18, _⟩ => ⟨S256x512x1, .f32⟩
  | .hbm, ⟨19, _⟩ => ⟨S256x1x512, .f32⟩
  | .hbm, ⟨20, _⟩ => ⟨S256x512, .f32⟩
  | .hbm, ⟨21, _⟩ => ⟨S256x1x512, .f32⟩
  | .hbm, ⟨22, _⟩ => ⟨S256x512x512, .f32⟩
  | .hbm, ⟨23, _⟩ => ⟨S256x512x512, .f32⟩
  | .hbm, ⟨24, _⟩ => ⟨S256x512x512, .f32⟩
  | .hbm, ⟨25, _⟩ => ⟨S256x262144, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S256x262144, .f32⟩
  | .hbm, ⟨30, _⟩ => ⟨S256x262144, .f32⟩
  | .hbm, ⟨31, _⟩ => ⟨S2x262144, .f32⟩
  | .hbm, ⟨32, _⟩ => ⟨S256x262144, .f32⟩
  | .hbm, ⟨33, _⟩ => ⟨S262144, .f32⟩
  | .hbm, ⟨34, _⟩ => ⟨S1x262144, .f32⟩
  | .hbm, ⟨35, _⟩ => ⟨S256x262144, .f32⟩
  | .hbm, ⟨36, _⟩ => ⟨S256x262144, .f32⟩
  | .hbm, ⟨37, _⟩ => ⟨S256x262144, .f32⟩
  | .hbm, ⟨38, _⟩ => ⟨S_, .f32⟩
  | .hbm, ⟨39, _⟩ => ⟨S256, .f32⟩
  | .hbm, ⟨40, _⟩ => ⟨S256x1, .f32⟩
  | _, _ => ⟨S256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  bcast_S256x2_S256x2x1_0_1 : S256x2.BroadcastsInDim S256x2x1 (![0, 1] : Fin 2 → Fin S256x2x1.rank)
  bcast_S2x512_S1x2x512_1_2 : S2x512.BroadcastsInDim S1x2x512 (![1, 2] : Fin 2 → Fin S1x2x512.rank)
  bcast_S256x2x1_S256x2x512_0_1_2 : S256x2x1.BroadcastsInDim S256x2x512 (![0, 1, 2] : Fin 3 → Fin S256x2x512.rank)
  bcast_S1x2x512_S256x2x512_0_1_2 : S1x2x512.BroadcastsInDim S256x2x512 (![0, 1, 2] : Fin 3 → Fin S256x2x512.rank)
  slices_S256x2x512_S256x1x512_0_0_0 : S256x2x512.Slices ![0, 0, 0] S256x1x512
  shapeCasts_S256x1x512_S256x512 : S256x1x512.ShapeCasts S256x512
  bcast_S256x512_S256x512x1_0_1 : S256x512.BroadcastsInDim S256x512x1 (![0, 1] : Fin 2 → Fin S256x512x1.rank)
  slices_S256x2x512_S256x1x512_0_1_0 : S256x2x512.Slices ![0, 1, 0] S256x1x512
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  shapeCasts_S256x512x512_S256x262144 : S256x512x512.ShapeCasts S256x262144
  reducesTo_S256x262144_S256_d1 : S256x262144.ReducesTo [1] S256
  h_S_ : 0 < S_.numel
  bcast_S256_S256x1_0 : S256.BroadcastsInDim S256x1 (![0] : Fin 1 → Fin S256x1.rank)
  bcast_S256x1_S256x262144_0_1 : S256x1.BroadcastsInDim S256x262144 (![0, 1] : Fin 2 → Fin S256x262144.rank)
  transposes_S262144x2_S2x262144_1_0 : S262144x2.Transposes [1, 0] S2x262144
  shapeCasts_S262144x1_S262144 : S262144x1.ShapeCasts S262144
  bcast_S262144_S1x262144_1 : S262144.BroadcastsInDim S1x262144 (![1] : Fin 1 → Fin S1x262144.rank)
  bcast_S1x262144_S256x262144_0_1 : S1x262144.BroadcastsInDim S256x262144 (![0, 1] : Fin 2 → Fin S256x262144.rank)
  dot_S256x2_S2x262144_S256x262144_1_0_0_1_n_n_wf : DotDims.WF S256x2 S2x262144 S256x262144 [1] [0] [0] [1] [] []

variable [Facts₀]

def dot_S256x2_S2x262144_S256x262144_1_0_0_1_n_n : DotDims S256x2 S2x262144 S256x262144 where
  lhsContracting := [1]
  rhsContracting := [0]
  lhsNonContracting := [0]
  rhsNonContracting := [1]
  lhsBatch := []
  rhsBatch := []
  wf := dot_S256x2_S2x262144_S256x262144_1_0_0_1_n_n_wf

class Facts : Prop extends Facts₀ where

variable [Facts]
-- ==== Proof.KernelRegion.lean ====
/-
  The one region of `Kernel`'s @main, for any float instance `F`.

  @main first prepares two arrays on the host — the membership parameters packed into one 8 x 512 array (rows 0-3 the two
  centre rows and the two width rows, rows 4-7 zero) and the three 512 x 512 consequent tables transposed and laid side by
  side as one 512 x 1536 array — and then runs the kernel body at the two points of a one-axis grid. Point `t` is handed
  rows `128 t .. 128 t + 127` of the input (a 128 x 2 block), the whole parameter array, the whole table array, and a
  128 x 1 block of the result to fill.

  This module says what the region does to memory: what the arrays hold when the region is entered (`entry`), which
  block of each array a point sees (`blockAt`), what the body leaves in the result block as a function of the three input
  blocks (`resultBlock`: the body's one store, of the pure term `k0_pay1 …` over its three loads), and from these the run of the
  whole program (`run_main`): it terminates without a fault, the result array ends as the blocks the points wrote and every
  other array as the region found it. In particular the five argument arrays end unchanged (`frame`).
-/
import proofs.«160476_j85203561218832_2_alg».proof.Proof.Gen.Kernel.Launch
import proofs.«160476_j85203561218832_2_alg».proof.Proof.Gen.Kernel.Skeleton
import proofs.«160476_j85203561218832_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the region is entered -/

/-- What core `c`'s buffer `b` holds when the region is entered: the launch contents `m` after the host operations that
    precede the region, in order. -/
abbrev entry (c : Dev nD) (b : Ref sig .tc) : Buf (Elt F) ((c : Thread nD τ).loc b) :=
  StableHlo.after hostOps0 (fun b => m (c, b)) b

/-- Every host operation writes a buffer of its own; none allocates. -/
theorem hostOps0_fresh : (hostOps0 : List (HloOp τ sig (Elt F))).Forall fun op => op.fresh = ∅ := by
  simp only [List.Forall]; repeat' constructor

/-- @main is the host operations followed by the region, so the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer no host operation writes is found by the region as launched. The five arguments are such buffers: each host
    operation writes the one buffer of its own result. -/
theorem entry_of_arg (c : Dev nD) (b : Ref sig .tc)
    (hb : b = main_arg0 ∨ b = main_arg1 ∨ b = main_arg2 ∨ b = main_arg3 ∨ b = main_arg4) :
    entry m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    rcases hb with rfl | rfl | rfl | rfl | rfl
    all_goals (repeat' apply And.intro)
    all_goals exact StableHlo.devRef_ne_of_ne (by decide)))

/-! ## The blocks the points see -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds the window's block at every point — at a point that fetches it because
    it was just fetched, at a point that does not because the block index has not moved since the fetch and the body leaves
    its inputs as it found them. For any proof data whose arrays are the region-entry contents and whose body leaves the
    input block in place; once per input window (the input rows, the parameters, the tables). -/
theorem input_staged_0 {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem input_staged_1 {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem input_staged_2 {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## The body -/

/-- The body's four accesses are to whole buffers: the 128 x 2 input block, the 8 x 512 parameters, the 512 x 1536 tables,
    the 128 x 1 result block. -/
abbrev wholeX : Rect S128x2 := Rect.unit (s := S128x2) ![0, 0] S128x2.size inb_S128x2_S128x2_0_0
abbrev wholeP : Rect S8x512 := Rect.unit (s := S8x512) ![0, 0] S8x512.size inb_S8x512_S8x512_0_0
abbrev wholeW : Rect S512x1536 := Rect.unit (s := S512x1536) ![0, 0] S512x1536.size inb_S512x1536_S512x1536_0_0
abbrev wholeO : Rect S128x1 := Rect.unit (s := S128x1) ![0, 0] S128x1.size inb_S128x1_S128x1_0_0

/-- The value the body stores, from what it loaded: the quotient `k0_pay1` of the numerator's three weighted row sums and
    the two total degrees, each a pure term (`k0_pay2 … k0_pay11`) of the input block `x`, the parameters `p` and the tables `w`. -/
def stored (x : Vec F S128x2 .f32) (p : Vec F S8x512 .f32) (w : Vec F S512x1536 .bf16) : Vec F S128x1 .f32 :=
  k0_pay1 (k0_pay2 x) (k0_pay3 x) (k0_pay6 x p) (k0_pay8 x p w) (k0_pay9 x p w) (k0_pay10 x p w) (k0_pay11 x p)

/-- What the body leaves in the result window's buffer, from the three input buffers: its one store, of `stored` of the
    three loads, over the whole buffer. -/
def resultBlock (x0 : Vec F S128x2 .f32) (x1 : Vec F S8x512 .f32) (x2 : Vec F S512x1536 .bf16) : Vec F S128x1 .f32 :=
  View.canon [⟨wholeO, stored (View.ld x0 wholeX) (View.ld x1 wholeP) (View.ld x2 wholeW)⟩]

/-- The one store covers the buffer. -/
theorem store_covers (p0 : Vec F S128x1 .f32) (y : S128x1.Idx) :
    ∃ pc ∈ ([⟨wholeO, p0⟩] : List (View.Piece (Elt F) S128x1 .f32)), y ∈ pc.1.set :=
  View.cover_of_tiled [⟨wholeO, p0⟩] S128x1.size (by rfl) y

set_option maxHeartbeats 2000000 in
/-- The body, on whole staging buffers — the three inputs' at contents `x0`, `x1`, `x2`, the result's at anything — runs to
    its end without a fault, leaves the inputs' buffers as they were and the result's at `resultBlock x0 x1 x2`: three loads,
    pure arithmetic, a load of the result buffer whose value is not used, and one store over all of it. -/
theorem body_triple (c : Dev nD) (E : Set ℕ) (i : grid0.Coords)
    (arg1 : Memref sig .tc .vmem S128x2 .f32) (harg1 : arg1.IsWhole) (arg2 : Memref sig .tc .vmem S8x512 .f32) (harg2 : arg2.IsWhole)
    (arg3 : Memref sig .tc .vmem S512x1536 .bf16) (harg3 : arg3.IsWhole) (arg4 : Memref sig .tc .vmem S128x1 .f32) (harg4 : arg4.IsWhole)
    (x0 : Vec F S128x2 .f32) (x1 : Vec F S8x512 .f32) (x2 : Vec F S512x1536 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (resultBlock x0 x1 x2)) -∗ K ⟨⟩))
      ⊢ wp frame (wpE (defs₀ (F := F)) Variants.none c none) E (cc0__anfis_kernel i arg1 harg1 arg2 harg2 arg3 harg3 arg4 harg4) K := by
  simp only [cc0__anfis_kernel_eq_skeleton]; unfold cc0__anfis_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The proof data of the pipeline -/

/-- On core `c`: the arrays as the region finds them; after the body at point `t` each input's buffer still at its block and
    the result's at `resultBlock` of the three input blocks; nothing else of the core's is touched. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => resultBlock (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) :
    (dats m 0 c).after 3 t = resultBlock (blockAt m c 0 t) (blockAt m c 1 t) (blockAt m c 2 t) := by dsimp only [dats]

theorem before_0 (c : Dev nD) (t : Fin cfg0.N) (d) : (dats m 0 c).before 0 t d = blockAt m c 0 t :=
  input_staged_0 m (dats m 0 c) (dats_A m c 0) (after_0 m c) t d
theorem before_1 (c : Dev nD) (t : Fin cfg0.N) (d) : (dats m 0 c).before 1 t d = blockAt m c 1 t :=
  input_staged_1 m (dats m 0 c) (dats_A m c 1) (after_1 m c) t d
theorem before_2 (c : Dev nD) (t : Fin cfg0.N) (d) : (dats m 0 c).before 2 t d = blockAt m c 2 t :=
  input_staged_2 m (dats m 0 c) (dats_A m c 2) (after_2 m c) t d

/-! ## The body at a point of the grid -/

/-- What the body is called with at point `t`: the untouched rest of the core, and each window's current staging buffer —
    the inputs' at their blocks, the result's at whatever an earlier point or nothing left there. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its inputs' buffers hold their blocks, so `body_triple` applies; the rest of the core passes
    through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The same at every point, in the form the launch asks for. -/
theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- From any memory with all counters zero, every weakly fair execution of @main terminates without a fault; afterwards
    each of the pipeline's four arrays holds what the proof data says it holds after the last write-back, and every other
    unscoped buffer what the region found in it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The five argument arrays end as they were launched: the input is a staged INPUT of the pipeline, which only reads it, and
    the other four are buffers the region does not touch and no host operation writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((dats_A m c 0).trans (entry_of_arg m c main_arg0 (.inl rfl)))),
      ((h c).2 main_arg1 (Pipeline.mem_restRefs_of main_arg1 (by decide) (by decide))).trans (entry_of_arg m c main_arg1 (.inr (.inl rfl))),
      ((h c).2 main_arg2 (Pipeline.mem_restRefs_of main_arg2 (by decide) (by decide))).trans (entry_of_arg m c main_arg2 (.inr (.inr (.inl rfl)))),
      ((h c).2 main_arg3 (Pipeline.mem_restRefs_of main_arg3 (by decide) (by decide))).trans (entry_of_arg m c main_arg3 (.inr (.inr (.inr (.inl rfl))))),
      ((h c).2 main_arg4 (Pipeline.mem_restRefs_of main_arg4 (by decide) (by decide))).trans (entry_of_arg m c main_arg4 (.inr (.inr (.inr (.inr rfl)))))⟩)
    (run_main m ρ)

end Cert.Kernel.Region

end
-- ==== Proof.KernelIdealRegion.lean ====
/-
  The one region of `KernelIdeal`'s @main, for any float instance `F`.

  @main first prepares two arrays on the host — the membership parameters packed into one 8 x 512 array (rows 0-3 the two
  centre rows and the two width rows, rows 4-7 zero) and the three 512 x 512 consequent tables transposed and laid side by
  side as one 512 x 1536 array — and then runs the kernel body at the two points of a one-axis grid. Point `t` is handed
  rows `128 t .. 128 t + 127` of the input (a 128 x 2 block), the whole parameter array, the whole table array, and a
  128 x 1 block of the result to fill.

  This module says what the region does to memory: what the arrays hold when the region is entered (`entry`), which
  block of each array a point sees (`blockAt`), what the body leaves in the result block as a function of the three input
  blocks (`resultBlock`: the body's one store, of the pure term `k0_pay1 …` over its three loads), and from these the run of the
  whole program (`run_main`): it terminates without a fault, the result array ends as the blocks the points wrote and every
  other array as the region found it. In particular the five argument arrays end unchanged (`frame`).
-/
import proofs.«160476_j85203561218832_2_alg».proof.Proof.Gen.KernelIdeal.Launch
import proofs.«160476_j85203561218832_2_alg».proof.Proof.Gen.KernelIdeal.Skeleton
import proofs.«160476_j85203561218832_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the region is entered -/

/-- What core `c`'s buffer `b` holds when the region is entered: the launch contents `m` after the host operations that
    precede the region, in order. -/
abbrev entry (c : Dev nD) (b : Ref sig .tc) : Buf (Elt F) ((c : Thread nD τ).loc b) :=
  StableHlo.after hostOps0 (fun b => m (c, b)) b

/-- Every host operation writes a buffer of its own; none allocates. -/
theorem hostOps0_fresh : (hostOps0 : List (HloOp τ sig (Elt F))).Forall fun op => op.fresh = ∅ := by
  simp only [List.Forall]; repeat' constructor

/-- @main is the host operations followed by the region, so the region is entered at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer no host operation writes is found by the region as launched. The five arguments are such buffers: each host
    operation writes the one buffer of its own result. -/
theorem entry_of_arg (c : Dev nD) (b : Ref sig .tc)
    (hb : b = main_arg0 ∨ b = main_arg1 ∨ b = main_arg2 ∨ b = main_arg3 ∨ b = main_arg4) :
    entry m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    rcases hb with rfl | rfl | rfl | rfl | rfl
    all_goals (repeat' apply And.intro)
    all_goals exact StableHlo.devRef_ne_of_ne (by decide)))

/-! ## The blocks the points see -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- An input window's current staging buffer holds the window's block at every point — at a point that fetches it because
    it was just fetched, at a point that does not because the block index has not moved since the fetch and the body leaves
    its inputs as it found them. For any proof data whose arrays are the region-entry contents and whose body leaves the
    input block in place; once per input window (the input rows, the parameters, the tables). -/
theorem input_staged_0 {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)
theorem input_staged_1 {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)
theorem input_staged_2 {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-! ## The body -/

/-- The body's four accesses are to whole buffers: the 128 x 2 input block, the 8 x 512 parameters, the 512 x 1536 tables,
    the 128 x 1 result block. -/
abbrev wholeX : Rect S128x2 := Rect.unit (s := S128x2) ![0, 0] S128x2.size inb_S128x2_S128x2_0_0
abbrev wholeP : Rect S8x512 := Rect.unit (s := S8x512) ![0, 0] S8x512.size inb_S8x512_S8x512_0_0
abbrev wholeW : Rect S512x1536 := Rect.unit (s := S512x1536) ![0, 0] S512x1536.size inb_S512x1536_S512x1536_0_0
abbrev wholeO : Rect S128x1 := Rect.unit (s := S128x1) ![0, 0] S128x1.size inb_S128x1_S128x1_0_0

/-- The value the body stores, from what it loaded: the quotient `k0_pay1` of the numerator's three weighted row sums and
    the two total degrees, each a pure term (`k0_pay2 … k0_pay11`) of the input block `x`, the parameters `p` and the tables `w`. -/
def stored (x : Vec F S128x2 .f32) (p : Vec F S8x512 .f32) (w : Vec F S512x1536 .bf16) : Vec F S128x1 .f32 :=
  k0_pay1 (k0_pay2 x) (k0_pay3 x) (k0_pay6 x p) (k0_pay8 x p w) (k0_pay9 x p w) (k0_pay10 x p w) (k0_pay11 x p)

/-- What the body leaves in the result window's buffer, from the three input buffers: its one store, of `stored` of the
    three loads, over the whole buffer. -/
def resultBlock (x0 : Vec F S128x2 .f32) (x1 : Vec F S8x512 .f32) (x2 : Vec F S512x1536 .bf16) : Vec F S128x1 .f32 :=
  View.canon [⟨wholeO, stored (View.ld x0 wholeX) (View.ld x1 wholeP) (View.ld x2 wholeW)⟩]

/-- The one store covers the buffer. -/
theorem store_covers (p0 : Vec F S128x1 .f32) (y : S128x1.Idx) :
    ∃ pc ∈ ([⟨wholeO, p0⟩] : List (View.Piece (Elt F) S128x1 .f32)), y ∈ pc.1.set :=
  View.cover_of_tiled [⟨wholeO, p0⟩] S128x1.size (by rfl) y

set_option maxHeartbeats 2000000 in
/-- The body, on whole staging buffers — the three inputs' at contents `x0`, `x1`, `x2`, the result's at anything — runs to
    its end without a fault, leaves the inputs' buffers as they were and the result's at `resultBlock x0 x1 x2`: three loads,
    pure arithmetic, a load of the result buffer whose value is not used, and one store over all of it. -/
theorem body_triple (c : Dev nD) (E : Set ℕ) (i : grid0.Coords)
    (arg1 : Memref sig .tc .vmem S128x2 .f32) (harg1 : arg1.IsWhole) (arg2 : Memref sig .tc .vmem S8x512 .f32) (harg2 : arg2.IsWhole)
    (arg3 : Memref sig .tc .vmem S512x1536 .bf16) (harg3 : arg3.IsWhole) (arg4 : Memref sig .tc .vmem S128x1 .f32) (harg4 : arg4.IsWhole)
    (x0 : Vec F S128x2 .f32) (x1 : Vec F S8x512 .f32) (x2 : Vec F S512x1536 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (resultBlock x0 x1 x2)) -∗ K ⟨⟩))
      ⊢ wp frame (wpE (defs₀ (F := F)) Variants.none c none) E (cc0__anfis_kernel i arg1 harg1 arg2 harg2 arg3 harg3 arg4 harg4) K := by
  simp only [cc0__anfis_kernel_eq_skeleton]; unfold cc0__anfis_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The proof data of the pipeline -/

/-- On core `c`: the arrays as the region finds them; after the body at point `t` each input's buffer still at its block and
    the result's at `resultBlock` of the three input blocks; nothing else of the core's is touched. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => resultBlock (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) :
    (dats m 0 c).after 3 t = resultBlock (blockAt m c 0 t) (blockAt m c 1 t) (blockAt m c 2 t) := by dsimp only [dats]

theorem before_0 (c : Dev nD) (t : Fin cfg0.N) (d) : (dats m 0 c).before 0 t d = blockAt m c 0 t :=
  input_staged_0 m (dats m 0 c) (dats_A m c 0) (after_0 m c) t d
theorem before_1 (c : Dev nD) (t : Fin cfg0.N) (d) : (dats m 0 c).before 1 t d = blockAt m c 1 t :=
  input_staged_1 m (dats m 0 c) (dats_A m c 1) (after_1 m c) t d
theorem before_2 (c : Dev nD) (t : Fin cfg0.N) (d) : (dats m 0 c).before 2 t d = blockAt m c 2 t :=
  input_staged_2 m (dats m 0 c) (dats_A m c 2) (after_2 m c) t d

/-! ## The body at a point of the grid -/

/-- What the body is called with at point `t`: the untouched rest of the core, and each window's current staging buffer —
    the inputs' at their blocks, the result's at whatever an earlier point or nothing left there. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its inputs' buffers hold their blocks, so `body_triple` applies; the rest of the core passes
    through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The same at every point, in the form the launch asks for. -/
theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- From any memory with all counters zero, every weakly fair execution of @main terminates without a fault; afterwards
    each of the pipeline's four arrays holds what the proof data says it holds after the last write-back, and every other
    unscoped buffer what the region found in it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := dats_A m) (hΦ := fun _ _ => rfl)

/-- The five argument arrays end as they were launched: the input is a staged INPUT of the pipeline, which only reads it, and
    the other four are buffers the region does not touch and no host operation writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((dats_A m c 0).trans (entry_of_arg m c main_arg0 (.inl rfl)))),
      ((h c).2 main_arg1 (Pipeline.mem_restRefs_of main_arg1 (by decide) (by decide))).trans (entry_of_arg m c main_arg1 (.inr (.inl rfl))),
      ((h c).2 main_arg2 (Pipeline.mem_restRefs_of main_arg2 (by decide) (by decide))).trans (entry_of_arg m c main_arg2 (.inr (.inr (.inl rfl)))),
      ((h c).2 main_arg3 (Pipeline.mem_restRefs_of main_arg3 (by decide) (by decide))).trans (entry_of_arg m c main_arg3 (.inr (.inr (.inr (.inl rfl))))),
      ((h c).2 main_arg4 (Pipeline.mem_restRefs_of main_arg4 (by decide) (by decide))).trans (entry_of_arg m c main_arg4 (.inr (.inr (.inr (.inr rfl)))))⟩)
    (run_main m ρ)

end Cert.KernelIdeal.Region

end
-- ==== Proof.LibScatter.lean ====
/-
  A scatter that REPLACES (the body of `x.at[i].set(u)`: the update's element, whatever was there), read at an index.

  The scatter is a left fold over the update's elements: element `n` has a target index in the operand, or none when it
  falls outside, and a step overwrites the running array at the target with the update's element. So an operand index that is
  the target of exactly one update element ends holding that element, and an index that is no element's target ends holding
  what the operand held.
-/
import Idealize.ShloMosaic.PureOps.ShapeOps
import Idealize.ShloMosaic.PureOps.Dims

noncomputable section

namespace Cert.Lib.Scatter

open Idealize.ShloMosaic

variable {α ι κ : Type}

/-- Overwriting along a list. A step `S r n` of element `n`, whose target is `g n`, puts `v n` at the target and leaves every
    other index of `r` alone (`hsome`), and leaves `r` alone when `n` has no target (`hnone`). Folded over a list in which
    `n₀` occurs and is the only element with target `i`, the steps leave `v n₀` at `i`. -/
theorem foldl_overwrite_hit (g : κ → Option ι) (v : κ → α) (S : (ι → α) → κ → (ι → α))
    (hsome : ∀ r n j, g n = some j → S r n j = v n ∧ ∀ i', i' ≠ j → S r n i' = r i')
    (hnone : ∀ r n, g n = none → S r n = r)
    (i : ι) (n₀ : κ) (hg : g n₀ = some i) :
    ∀ (l : List κ) (x : ι → α), (∀ n ∈ l, g n = some i → n = n₀) → n₀ ∈ l → l.foldl S x i = v n₀ := by
  classical
  -- by induction on the list: once `n₀` has been met the index holds `v n₀`, before that what it held
  have key : ∀ (l : List κ) (x : ι → α), (∀ n ∈ l, g n = some i → n = n₀) →
      l.foldl S x i = if n₀ ∈ l then v n₀ else x i := by
    intro l
    induction l with
    | nil => intro x _; simp
    | cons n l ih =>
      intro x hu
      rw [List.foldl_cons, ih _ (fun n' hn' => hu n' (List.mem_cons_of_mem _ hn'))]
      by_cases hmem : n₀ ∈ l
      · rw [if_pos hmem, if_pos (List.mem_cons_of_mem _ hmem)]
      · rw [if_neg hmem]
        by_cases hn : n = n₀
        · subst hn
          rw [if_pos List.mem_cons_self]
          exact (hsome x n i hg).1
        · have hnot : n₀ ∉ n :: l := fun h => by
            rcases List.mem_cons.1 h with h | h
            · exact hn h.symm
            · exact hmem h
          rw [if_neg hnot]
          cases hgn : g n with
          | none => rw [hnone x n hgn]
          | some j =>
            refine (hsome x n j hgn).2 i fun hij => hn (hu n List.mem_cons_self ?_)
            rw [hgn, hij]
  intro l x hu hmem
  rw [key l x hu, if_pos hmem]

/-- The same steps leave an index that is no element's target as it was. -/
theorem foldl_overwrite_miss (g : κ → Option ι) (v : κ → α) (S : (ι → α) → κ → (ι → α))
    (hsome : ∀ r n j, g n = some j → S r n j = v n ∧ ∀ i', i' ≠ j → S r n i' = r i')
    (hnone : ∀ r n, g n = none → S r n = r) (i : ι) :
    ∀ (l : List κ) (x : ι → α), (∀ n ∈ l, g n ≠ some i) → l.foldl S x i = x i := by
  intro l
  induction l with
  | nil => intro x _; rfl
  | cons n l ih =>
    intro x hm
    rw [List.foldl_cons, ih _ (fun n' hn' => hm n' (List.mem_cons_of_mem _ hn'))]
    cases hgn : g n with
    | none => rw [hnone x n hgn]
    | some j =>
      refine (hsome x n j hgn).2 i fun hij => hm n List.mem_cons_self ?_
      rw [hgn, hij]

variable {s si u : Shape} {w : Nat}

/-- The step of a replacing scatter is such a step: element `n`'s target is the result index of update index number `n`. -/
theorem scatter_step_spec (d : ScatterDims s si u) (idx : IVec si w) (upd : u.Idx → α) :
    (∀ (r : s.Idx → α) (n : Fin u.numel) (j : s.Idx), d.resultIdx? (u.rowMajor.symm n) idx = some j →
        (match d.resultIdx? (u.rowMajor.symm n) idx with
          | some i => fun i' => if i' = i then (fun (_ b : α) => b) (r i) (upd (u.rowMajor.symm n)) else r i'
          | none => r) j = upd (u.rowMajor.symm n)
        ∧ ∀ i', i' ≠ j → (match d.resultIdx? (u.rowMajor.symm n) idx with
          | some i => fun i' => if i' = i then (fun (_ b : α) => b) (r i) (upd (u.rowMajor.symm n)) else r i'
          | none => r) i' = r i')
    ∧ (∀ (r : s.Idx → α) (n : Fin u.numel), d.resultIdx? (u.rowMajor.symm n) idx = none →
        (match d.resultIdx? (u.rowMajor.symm n) idx with
          | some i => fun i' => if i' = i then (fun (_ b : α) => b) (r i) (upd (u.rowMajor.symm n)) else r i'
          | none => r) = r) := by
  refine ⟨fun r n j h => ?_, fun r n h => ?_⟩
  · rw [h]
    exact ⟨if_pos rfl, fun i' hi' => if_neg hi'⟩
  · rw [h]

/-- A replacing scatter at an operand index that is the target of update index `j` and of no other: the update at `j`. -/
theorem scatter_replace_hit (d : ScatterDims s si u) (x : s.Idx → α) (idx : IVec si w) (upd : u.Idx → α) (i : s.Idx) (j : u.Idx)
    (hj : d.resultIdx? j idx = some i) (hu : ∀ j', d.resultIdx? j' idx = some i → j' = j) :
    Host.scatter d (fun _ b => b) x idx upd i = upd j := by
  have e : upd (u.rowMajor.symm (u.rowMajor j)) = upd j := by rw [Equiv.symm_apply_apply]
  rw [← e]
  exact foldl_overwrite_hit (fun n => d.resultIdx? (u.rowMajor.symm n) idx) (fun n => upd (u.rowMajor.symm n)) _
    (scatter_step_spec d idx upd).1 (scatter_step_spec d idx upd).2 i (u.rowMajor j)
    (by rw [Equiv.symm_apply_apply]; exact hj) (List.finRange u.numel) x
    (fun n _ hn => by rw [← hu _ hn, Equiv.apply_symm_apply]) (List.mem_finRange _)

/-- A replacing scatter at an operand index that is no update index's target: the operand there. -/
theorem scatter_replace_miss (d : ScatterDims s si u) (x : s.Idx → α) (idx : IVec si w) (upd : u.Idx → α) (i : s.Idx)
    (hm : ∀ j', d.resultIdx? j' idx ≠ some i) :
    Host.scatter d (fun _ b => b) x idx upd i = x i :=
  foldl_overwrite_miss (fun n => d.resultIdx? (u.rowMajor.symm n) idx) (fun n => upd (u.rowMajor.symm n)) _
    (scatter_step_spec d idx upd).1 (scatter_step_spec d idx upd).2 i (List.finRange u.numel) x (fun n _ => hm _)

end Cert.Lib.Scatter

end
-- ==== Proof.HostParams.lean ====
/-
  The membership parameters as the kernel sees them.

  Before the region @main packs the two centre rows and the two width rows into ONE array of 8 rows and 512 columns: it
  starts from zeros and writes four rows into it one after the other, centres of input 0 at row 0, centres of input 1 at
  row 1, widths of input 0 at row 2, widths of input 1 at row 3 (rows 4-7 stay zero and nobody reads them). Writing a
  row is a scatter of a 1 x 512 update at one start index `(k, 0)`: update element `(0, c)` lands at `(k, c)`, so the row
  `k` is replaced and every other row kept. Hence row 0 of the packed array is row 0 of the centres, row 1 is row 1 of the
  centres, row 2 is row 0 of the widths and row 3 is row 1 of the widths.
-/
import proofs.«160476_j85203561218832_2_alg».proof.Proof.KernelIdealRegion
import proofs.«160476_j85203561218832_2_alg».proof.Proof.LibScatter
import Idealize.ShloMosaic.Lib.Pipeline.Value
import Idealize.ShloMosaic.Lib.ValueIdx
import Idealize.ShloMosaic.Lib.StableHlo.Run

noncomputable section

namespace Cert.KernelIdeal.HostParams

open Cert.KernelIdeal Cert.KernelIdeal.Gen Cert.KernelIdeal.Region Idealize.ShloMosaic Idealize.ShloMosaic.ValueIdx
open Idealize.ShloMosaic.TcCoe Idealize.SL.Sem Idealize.ShloMosaic.StableHlo

variable {F : FTy → Type} [FloatOps F]

/-- The start index of a row write, as the scatter reads it: the one-entry index vector holding the row number. -/
abbrev rowIdx (k : BitVec 32) : IVec S1 32 := broadcastInDim S1 ![] bcast_S_S1 (constantI S_ 32 k)

/-- `x` with row `k` replaced by `row`. -/
def putRow {α : Type} (x : S8x512.Idx → α) (k : BitVec 32) (row : S1x512.Idx → α) : S8x512.Idx → α :=
  Host.scatter scatter_S8x512_S1_S1x512_01_n_0_0 (fun _ b => b) x (rowIdx k) row

/-- The packed parameter array, as @main computes it from the centres and the widths. -/
def paramsOf (mean sigma : FVec F S2x512 .f32) : FVec F S8x512 .f32 :=
  putRow (putRow (putRow (putRow (broadcastInDim S8x512 ![] bcast_S_S8x512 (constant (F := F) S_ .f32 0x00000000#32))
      0#32 (extractStridedSlice S1x512 ![0, 0] mean slices_S2x512_S1x512_0_0))
      1#32 (extractStridedSlice S1x512 ![1, 0] mean slices_S2x512_S1x512_1_0))
      2#32 (extractStridedSlice S1x512 ![0, 0] sigma slices_S2x512_S1x512_0_0))
      3#32 (extractStridedSlice S1x512 ![1, 0] sigma slices_S2x512_S1x512_1_0)

set_option maxHeartbeats 4000000 in
/-- The region finds the packed parameter array at that term of the launch contents of the centres and the widths. -/
theorem entry_params (m : (ℓ : Loc nD τ sig) → Buf (Elt F) ℓ) (c : Dev nD) :
    (entry m c main_v26 : S8x512.Idx → Elt F .f32)
      = paramsOf (m ((c.tc : Thread nD τ).loc main_arg1)) (m ((c.tc : Thread nD τ).loc main_arg2)) := by
  unfold paramsOf putRow
  dsimp only [entry, hostOps0]
  after_results

/-! ## Where a row write lands -/

section Lands

variable (k : BitVec 32) (j : S1x512.Idx)

theorem start_row : scatter_S8x512_S1_S1x512_01_n_0_0.start j (rowIdx k) (0 : Fin 2) = k.toInt := by
  unfold ScatterDims.start
  rw [dif_pos (by decide)]
  rfl

theorem start_col : scatter_S8x512_S1_S1x512_01_n_0_0.start j (rowIdx k) (1 : Fin 2) = 0 := by
  unfold ScatterDims.start
  rw [dif_neg (by decide)]

theorem window_row : scatter_S8x512_S1_S1x512_01_n_0_0.window j (0 : Fin 2) = (j 0).val := by
  unfold ScatterDims.window
  rw [dif_pos (by decide)]
  rfl

theorem window_col : scatter_S8x512_S1_S1x512_01_n_0_0.window j (1 : Fin 2) = (j 1).val := by
  unfold ScatterDims.window
  rw [dif_pos (by decide)]
  rfl

/-- Update element `(0, c)` of a write at row `k` lands at `(k, c)`: on the row axis the start is `k` and the update has
    one row; on the column axis the start is 0 and the window coordinate is the column. -/
theorem lands (kn : Fin 8) (hk : k.toInt = (kn.val : Int)) :
    scatter_S8x512_S1_S1x512_01_n_0_0.resultIdx? j (rowIdx k) = some (ix2 kn (j 1)) := by
  have hj0 : (j 0).val = 0 := by have h : (j 0).val < 1 := (j 0).isLt; omega
  have h0 : scatter_S8x512_S1_S1x512_01_n_0_0.start j (rowIdx k) (0 : Fin 2)
      + ((scatter_S8x512_S1_S1x512_01_n_0_0.window j (0 : Fin 2) : Nat) : Int) = (kn.val : Int) := by
    rw [start_row, window_row, hk, hj0]; simp
  have h1 : scatter_S8x512_S1_S1x512_01_n_0_0.start j (rowIdx k) (1 : Fin 2)
      + ((scatter_S8x512_S1_S1x512_01_n_0_0.window j (1 : Fin 2) : Nat) : Int) = ((j 1).val : Int) := by
    rw [start_col, window_col]; simp
  have hall : ∀ a : Fin S8x512.rank, 0 ≤ scatter_S8x512_S1_S1x512_01_n_0_0.start j (rowIdx k) a
        + ((scatter_S8x512_S1_S1x512_01_n_0_0.window j a : Nat) : Int)
      ∧ scatter_S8x512_S1_S1x512_01_n_0_0.start j (rowIdx k) a
        + ((scatter_S8x512_S1_S1x512_01_n_0_0.window j a : Nat) : Int) < (S8x512.size a : Nat) := by
    refine Fin.forall_fin_two.2 ⟨?_, ?_⟩
    · rw [h0]; exact ⟨Int.natCast_nonneg _, by have := kn.isLt; show (kn.val : Int) < ((8 : Nat) : Int); omega⟩
    · rw [h1]; exact ⟨Int.natCast_nonneg _, by have h : (j 1).val < 512 := (j 1).isLt; show ((j 1).val : Int) < ((512 : Nat) : Int); omega⟩
  unfold ScatterDims.resultIdx?
  rw [dif_pos hall]
  refine congrArg some (funext ?_)
  refine Fin.forall_fin_two.2 ⟨?_, ?_⟩
  · apply Fin.ext
    show (scatter_S8x512_S1_S1x512_01_n_0_0.start j (rowIdx k) (0 : Fin 2)
      + ((scatter_S8x512_S1_S1x512_01_n_0_0.window j (0 : Fin 2) : Nat) : Int)).toNat = kn.val
    rw [h0]; exact Int.toNat_natCast _
  · apply Fin.ext
    show (scatter_S8x512_S1_S1x512_01_n_0_0.start j (rowIdx k) (1 : Fin 2)
      + ((scatter_S8x512_S1_S1x512_01_n_0_0.window j (1 : Fin 2) : Nat) : Int)).toNat = (j 1).val
    rw [h1]; exact Int.toNat_natCast _

end Lands

/-! ## A row write read at an index -/

variable {α : Type}

/-- On the written row: the update. -/
theorem putRow_same (x : S8x512.Idx → α) (k : BitVec 32) (kn : Fin 8) (hk : k.toInt = (kn.val : Int)) (row : S1x512.Idx → α)
    (c : Fin 512) : putRow x k row (ix2 kn c) = row (ix2 (0 : Fin 1) c) := by
  unfold putRow
  refine Cert.Lib.Scatter.scatter_replace_hit _ x (rowIdx k) row (ix2 kn c) (ix2 (0 : Fin 1) c) ?_ ?_
  · rw [lands k _ kn hk]; rfl
  · intro j' hj'
    rw [lands k j' kn hk] at hj'
    have e := congrFun (Option.some.inj hj') (1 : Fin 2)
    have h1 : j' 1 = c := e
    rw [eq_ix2 j', h1]
    exact congrArg (fun z => ix2 z c) (Fin.ext (by have h : (j' 0).val < 1 := (j' 0).isLt; show (j' 0).val = 0; omega))

/-- On any other row: what was there. -/
theorem putRow_other (x : S8x512.Idx → α) (k : BitVec 32) (kn : Fin 8) (hk : k.toInt = (kn.val : Int)) (row : S1x512.Idx → α)
    (r : Fin 8) (hr : r ≠ kn) (c : Fin 512) : putRow x k row (ix2 r c) = x (ix2 r c) := by
  unfold putRow
  refine Cert.Lib.Scatter.scatter_replace_miss _ x (rowIdx k) row (ix2 r c) fun j' hj' => hr ?_
  rw [lands k j' kn hk] at hj'
  have e := congrFun (Option.some.inj hj') (0 : Fin 2)
  exact e.symm

/-- Row `k` of a two-row array, cut out as a one-row array, read at `(0, c)`. -/
theorem row0_at (v : FVec F S2x512 .f32) (c : Fin 512) :
    extractStridedSlice S1x512 ![0, 0] v slices_S2x512_S1x512_0_0 (ix2 (0 : Fin 1) c) = v (ix2 (0 : Fin 2) c) :=
  extractStridedSlice_apply ![0, 0] v slices_S2x512_S1x512_0_0 (ix2 (0 : Fin 1) c) (ix2 (0 : Fin 2) c)
    (Fin.forall_fin_two.2 ⟨rfl, by show c.val = 0 + c.val; omega⟩)

theorem row1_at (v : FVec F S2x512 .f32) (c : Fin 512) :
    extractStridedSlice S1x512 ![1, 0] v slices_S2x512_S1x512_1_0 (ix2 (0 : Fin 1) c) = v (ix2 (1 : Fin 2) c) :=
  extractStridedSlice_apply ![1, 0] v slices_S2x512_S1x512_1_0 (ix2 (0 : Fin 1) c) (ix2 (1 : Fin 2) c)
    (Fin.forall_fin_two.2 ⟨rfl, by show c.val = 0 + c.val; omega⟩)

/-! ## The four rows the kernel reads -/

variable (mean sigma : FVec F S2x512 .f32) (c : Fin 512)

/-- Row 3: the widths of input 1 (the last write). -/
theorem params_row3 : paramsOf mean sigma (ix2 (3 : Fin 8) c) = sigma (ix2 (1 : Fin 2) c) := by
  unfold paramsOf
  rw [putRow_same _ 3#32 (3 : Fin 8) (by decide), row1_at]

/-- Row 2: the widths of input 0 (the last write leaves it alone). -/
theorem params_row2 : paramsOf mean sigma (ix2 (2 : Fin 8) c) = sigma (ix2 (0 : Fin 2) c) := by
  unfold paramsOf
  rw [putRow_other _ 3#32 (3 : Fin 8) (by decide) _ (2 : Fin 8) (by decide),
    putRow_same _ 2#32 (2 : Fin 8) (by decide), row0_at]

/-- Row 1: the centres of input 1. -/
theorem params_row1 : paramsOf mean sigma (ix2 (1 : Fin 8) c) = mean (ix2 (1 : Fin 2) c) := by
  unfold paramsOf
  rw [putRow_other _ 3#32 (3 : Fin 8) (by decide) _ (1 : Fin 8) (by decide),
    putRow_other _ 2#32 (2 : Fin 8) (by decide) _ (1 : Fin 8) (by decide),
    putRow_same _ 1#32 (1 : Fin 8) (by decide), row1_at]

/-- Row 0: the centres of input 0. -/
theorem params_row0 : paramsOf mean sigma (ix2 (0 : Fin 8) c) = mean (ix2 (0 : Fin 2) c) := by
  unfold paramsOf
  rw [putRow_other _ 3#32 (3 : Fin 8) (by decide) _ (0 : Fin 8) (by decide),
    putRow_other _ 2#32 (2 : Fin 8) (by decide) _ (0 : Fin 8) (by decide),
    putRow_other _ 1#32 (1 : Fin 8) (by decide) _ (0 : Fin 8) (by decide),
    putRow_same _ 0#32 (0 : Fin 8) (by decide), row0_at]

end Cert.KernelIdeal.HostParams

end
-- ==== Proof.Spec.lean ====
/-
  One batch row of the fuzzy inference system, written twice over the extended reals.

  A row has two inputs `x0`, `x1`. Input 0 has 512 Gaussian fuzzy sets and so has input 1; `a i` is the degree to which
  `x0` belongs to set `i` of input 0 and `b j` the degree to which `x1` belongs to set `j` of input 1. There is one rule per
  pair `(i, j)`, 512 · 512 of them, numbered `512 · i + j`; rule `(i, j)` fires with strength `a i * b j` and proposes the
  affine value `x0 * w0 i j + x1 * w1 i j + β i j`. The output is the mean of the proposals weighted by the strengths.

  `byRules` is that sentence read literally: each rule's strength divided by the total strength, times its proposal,
  summed over the rules. `factored` uses that a strength is a PRODUCT and a proposal is AFFINE in the inputs: the total
  strength is `(∑ a) * (∑ b)`, and the weighted sum of proposals splits into three sums of the shape
  `∑ i, a i * ∑ j, b j * c i j` — a matrix product of `b` with `c` followed by a weighted row sum.
  That the two agree for real inputs and positive degrees is `Cert.Anfis.byRules_eq_factored` (Proof/Law.lean).
-/
import Idealize.ShloMosaic.PureOps.Ideal

noncomputable section

namespace Cert.Anfis

open Idealize.ShloMosaic

/-- The degree to which `x` belongs to the Gaussian fuzzy set of centre `μ` and width `σ`: `exp (-((x - μ) / σ)²)`. -/
def gauss (x μ σ : EReal) : EReal :=
  Ideal.exp (-(Ideal.div (x - μ) σ * Ideal.div (x - μ) σ))

/-- Rule `(i, j)` is rule number `512 · i + j` of the 262144. -/
def rule (i j : Fin 512) : Fin 262144 := ⟨i.val * 512 + j.val, by have := i.isLt; have := j.isLt; omega⟩

/-- The output rule by rule: every rule's share of the total strength times its proposal, summed. -/
def byRules (x0 x1 : EReal) (a b : Fin 512 → EReal) (w0 w1 β : Fin 512 → Fin 512 → EReal) : EReal :=
  ∑ i, ∑ j, (x0 * w0 i j + x1 * w1 i j + β i j) * Ideal.div (a i * b j) (∑ i', ∑ j', a i' * b j')

/-- The output with the double sums factored: three weighted row sums of matrix products over the product of the two
    total degrees. -/
def factored (x0 x1 : EReal) (a b : Fin 512 → EReal) (w0 w1 β : Fin 512 → Fin 512 → EReal) : EReal :=
  Ideal.div
    (x0 * (∑ i, a i * ∑ j, b j * w0 i j) + x1 * (∑ i, a i * ∑ j, b j * w1 i j) + ∑ i, a i * ∑ j, b j * β i j)
    ((∑ i, a i) * ∑ j, b j)

end Cert.Anfis

end
-- ==== Proof.HostTables.lean ====
/-
  The table array the kernel program prepares on the host before its region, as a function of the two consequent
  arguments, and what it holds at each index.

  The consequent weights arrive as a 262144 x 2 array `cw` (row `512 i + j` holds the two weights of rule `(i, j)`) and
  the consequent offsets as a 262144 x 1 array `cb`. The host reshapes `cw` to 512 x 512 x 2, takes its two 512 x 512
  planes, transposes each, does the same with `cb` reshaped to 512 x 512, and lays the three transposed tables side by
  side as one 512 x 1536 array. So row `j` of the result holds, at columns `i`, `512 + i` and `1024 + i`, the first
  weight, the second weight and the offset of rule `(i, j)`.
-/
import proofs.«160476_j85203561218832_2_alg».proof.Proof.KernelIdealRegion
import proofs.«160476_j85203561218832_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostTables

open Cert.KernelIdeal Cert.KernelIdeal.Gen Cert.KernelIdeal.Region Idealize.ShloMosaic Idealize.ShloMosaic.ValueIdx
  Cert.Anfis

/-- The 512 x 1536 table array as the host operations build it from the weights `cw` and the offsets `cb`. -/
def tablesOf {F : FTy → Type} [FloatOps F] (cw : FVec F S262144x2 .f32) (cb : FVec F S262144x1 .f32) :
    FVec F S512x1536 .bf16 :=
  concatenate S512x1536 1
    [⟨S512x512, truncf .bf16 (transpose S512x512 [1, 0]
        (shapeCast S512x512 (extractStridedSlice S512x512x1 ![0, 0, 0]
          (shapeCast S512x512x2 cw shapeCasts_S262144x2_S512x512x2) slices_S512x512x2_S512x512x1_0_0_0)
          shapeCasts_S512x512x1_S512x512) transposes_S512x512_S512x512_1_0) bitsLt_bf16_f32⟩,
     ⟨S512x512, truncf .bf16 (transpose S512x512 [1, 0]
        (shapeCast S512x512 (extractStridedSlice S512x512x1 ![0, 0, 1]
          (shapeCast S512x512x2 cw shapeCasts_S262144x2_S512x512x2) slices_S512x512x2_S512x512x1_0_0_1)
          shapeCasts_S512x512x1_S512x512) transposes_S512x512_S512x512_1_0) bitsLt_bf16_f32⟩,
     ⟨S512x512, truncf .bf16 (transpose S512x512 [1, 0]
        (shapeCast S512x512 (shapeCast S262144 cb shapeCasts_S262144x1_S262144) shapeCasts_S262144_S512x512)
        transposes_S512x512_S512x512_1_0) bitsLt_bf16_f32⟩]
    concatenates_S512x512_S512x512_S512x512_S512x1536_d1

/-- When the region is entered, the table buffer holds `tablesOf` of the two consequent arguments. -/
theorem entry_tables {F : FTy → Type} [FloatOps F] (m : (ℓ : Loc nD τ sig) → Buf (Elt F) ℓ) (c : Dev nD) :
    entry m c main_v13
      = tablesOf (m ((c.tc : Thread nD τ).loc main_arg3)) (m ((c.tc : Thread nD τ).loc main_arg4)) := by
  dsimp only [entry, hostOps0]
  after_results
  rfl

/-! ## The layout operations at explicit coordinates -/

section Layout
variable {α : Type}

/-- The weights reshaped to 512 x 512 x 2 hold at `(i, j, e)` weight `e` of rule `512 i + j`. -/
theorem cw3_at (cw : S262144x2.Idx → α) (i j : Fin 512) (e : Fin 2) :
    shapeCast S512x512x2 cw shapeCasts_S262144x2_S512x512x2 (ix3 i j e) = cw (ix2 (rule i j) e) :=
  shapeCast_apply cw shapeCasts_S262144x2_S512x512x2 (ix3 i j e) (ix2 (rule i j) e)
    (by rw [Shape.rowMajor_val_two, Shape.rowMajor_val_three]
        show (i.val * 512 + j.val) * 2 + e.val = (i.val * 512 + j.val) * 2 + e.val; rfl)

/-- The plane `[:, :, 0:1]` at `(i, j, 0)` is the array at `(i, j, 0)`. -/
theorem plane0_at (v : S512x512x2.Idx → α) (i j : Fin 512) :
    extractStridedSlice S512x512x1 ![0, 0, 0] v slices_S512x512x2_S512x512x1_0_0_0 (ix3 i j (0 : Fin 1))
      = v (ix3 i j (0 : Fin 2)) :=
  extractStridedSlice_apply ![0, 0, 0] v slices_S512x512x2_S512x512x1_0_0_0 (ix3 i j (0 : Fin 1)) (ix3 i j (0 : Fin 2))
    (fun a => match a with
      | ⟨0, _⟩ => by show i.val = 0 + i.val; omega
      | ⟨1, _⟩ => by show j.val = 0 + j.val; omega
      | ⟨2, _⟩ => by show 0 = 0 + 0; rfl)

/-- The plane `[:, :, 1:2]` at `(i, j, 0)` is the array at `(i, j, 1)`. -/
theorem plane1_at (v : S512x512x2.Idx → α) (i j : Fin 512) :
    extractStridedSlice S512x512x1 ![0, 0, 1] v slices_S512x512x2_S512x512x1_0_0_1 (ix3 i j (0 : Fin 1))
      = v (ix3 i j (1 : Fin 2)) :=
  extractStridedSlice_apply ![0, 0, 1] v slices_S512x512x2_S512x512x1_0_0_1 (ix3 i j (0 : Fin 1)) (ix3 i j (1 : Fin 2))
    (fun a => match a with
      | ⟨0, _⟩ => by show i.val = 0 + i.val; omega
      | ⟨1, _⟩ => by show j.val = 0 + j.val; omega
      | ⟨2, _⟩ => by show 1 = 1 + 0; rfl)

/-- A 512 x 512 x 1 array reshaped to 512 x 512 holds at `(i, j)` what it held at `(i, j, 0)`. -/
theorem squeeze_at (v : S512x512x1.Idx → α) (i j : Fin 512) :
    shapeCast S512x512 v shapeCasts_S512x512x1_S512x512 (ix2 i j) = v (ix3 i j (0 : Fin 1)) :=
  shapeCast_apply v shapeCasts_S512x512x1_S512x512 (ix2 i j) (ix3 i j (0 : Fin 1))
    (by rw [Shape.rowMajor_val_three, Shape.rowMajor_val_two]
        show (i.val * 512 + j.val) * 1 + 0 = i.val * 512 + j.val; omega)

/-- The transpose at `(j, i)` is the array at `(i, j)`. -/
theorem transpose_at (v : S512x512.Idx → α) (i j : Fin 512) :
    transpose S512x512 [1, 0] v transposes_S512x512_S512x512_1_0 (ix2 j i) = v (ix2 i j) :=
  transpose_apply [1, 0] v transposes_S512x512_S512x512_1_0 (ix2 j i) (ix2 i j)
    (fun b => match b with | ⟨0, _⟩ => rfl | ⟨1, _⟩ => rfl)

/-- The offsets reshaped to 262144 and then to 512 x 512 hold at `(i, j)` the offset of rule `512 i + j`. -/
theorem cb2_at (cb : S262144x1.Idx → α) (i j : Fin 512) :
    shapeCast S512x512 (shapeCast S262144 cb shapeCasts_S262144x1_S262144) shapeCasts_S262144_S512x512 (ix2 i j)
      = cb (ix2 (rule i j) (0 : Fin 1)) := by
  refine (shapeCast_apply _ shapeCasts_S262144_S512x512 (ix2 i j) (ix1 (rule i j)) ?_).trans
    (shapeCast_apply cb shapeCasts_S262144x1_S262144 (ix1 (rule i j)) (ix2 (rule i j) (0 : Fin 1)) ?_)
  · rw [Shape.rowMajor_val_one, Shape.rowMajor_val_two]
    show i.val * 512 + j.val = i.val * 512 + j.val; rfl
  · rw [Shape.rowMajor_val_two, Shape.rowMajor_val_one]
    show (i.val * 512 + j.val) * 1 + 0 = i.val * 512 + j.val; omega

/-- Three 512 x 512 tables side by side: columns `0 .. 511` are the first table's … -/
theorem concat_at0 (A B C : S512x512.Idx → α) (j i : Fin 512) (col : Fin 1536) (hc : col.val = i.val) :
    concatenate S512x1536 1 [⟨S512x512, A⟩, ⟨S512x512, B⟩, ⟨S512x512, C⟩]
      concatenates_S512x512_S512x512_S512x512_S512x1536_d1 (ix2 j col) = A (ix2 j i) :=
  concatenate_apply_piece 1 [⟨S512x512, A⟩, ⟨S512x512, B⟩, ⟨S512x512, C⟩]
    concatenates_S512x512_S512x512_S512x512_S512x1536_d1 (ix2 j col) 0 (by show 0 < 3; omega)
    S512x512 A rfl rfl 0 rfl (ix2 j i)
    (fun b hb => match b, hb with
      | ⟨0, _⟩, _ => rfl
      | ⟨1, _⟩, hb => absurd (Fin.ext rfl) hb)
    (by show 0 + i.val = col.val; omega)

/-- … columns `512 .. 1023` the second's … -/
theorem concat_at1 (A B C : S512x512.Idx → α) (j i : Fin 512) (col : Fin 1536) (hc : col.val = 512 + i.val) :
    concatenate S512x1536 1 [⟨S512x512, A⟩, ⟨S512x512, B⟩, ⟨S512x512, C⟩]
      concatenates_S512x512_S512x512_S512x512_S512x1536_d1 (ix2 j col) = B (ix2 j i) :=
  concatenate_apply_piece 1 [⟨S512x512, A⟩, ⟨S512x512, B⟩, ⟨S512x512, C⟩]
    concatenates_S512x512_S512x512_S512x512_S512x1536_d1 (ix2 j col) 1 (by show 1 < 3; omega)
    S512x512 B rfl rfl 512 rfl (ix2 j i)
    (fun b hb => match b, hb with
      | ⟨0, _⟩, _ => rfl
      | ⟨1, _⟩, hb => absurd (Fin.ext rfl) hb)
    (by show 512 + i.val = col.val; omega)

/-- … and columns `1024 .. 1535` the third's. -/
theorem concat_at2 (A B C : S512x512.Idx → α) (j i : Fin 512) (col : Fin 1536) (hc : col.val = 1024 + i.val) :
    concatenate S512x1536 1 [⟨S512x512, A⟩, ⟨S512x512, B⟩, ⟨S512x512, C⟩]
      concatenates_S512x512_S512x512_S512x512_S512x1536_d1 (ix2 j col) = C (ix2 j i) :=
  concatenate_apply_piece 1 [⟨S512x512, A⟩, ⟨S512x512, B⟩, ⟨S512x512, C⟩]
    concatenates_S512x512_S512x512_S512x512_S512x1536_d1 (ix2 j col) 2 (by show 2 < 3; omega)
    S512x512 C rfl rfl 1024 rfl (ix2 j i)
    (fun b hb => match b, hb with
      | ⟨0, _⟩, _ => rfl
      | ⟨1, _⟩, hb => absurd (Fin.ext rfl) hb)
    (by show 1024 + i.val = col.val; omega)

end Layout

/-! ## The table array at an index, over the extended reals -/

/-- Row `j`, column `i`: the first weight of rule `(i, j)`. -/
theorem tables_at_w0 (cw : FVec Ideal S262144x2 .f32) (cb : FVec Ideal S262144x1 .f32) (i j : Fin 512) :
    tablesOf (F := Ideal) cw cb (ix2 j (⟨i.val, by have := i.isLt; omega⟩ : Fin 1536))
      = cw (ix2 (rule i j) (0 : Fin 2)) := by
  unfold tablesOf
  refine (concat_at0 _ _ _ j i _ rfl).trans ?_
  refine (truncf_apply (ψ := .bf16) _ bitsLt_bf16_f32 _).trans ?_
  exact (transpose_at _ i j).trans ((squeeze_at _ i j).trans ((plane0_at _ i j).trans (cw3_at cw i j 0)))

/-- Row `j`, column `512 + i`: the second weight of rule `(i, j)`. -/
theorem tables_at_w1 (cw : FVec Ideal S262144x2 .f32) (cb : FVec Ideal S262144x1 .f32) (i j : Fin 512) :
    tablesOf (F := Ideal) cw cb (ix2 j (⟨512 + i.val, by have := i.isLt; omega⟩ : Fin 1536))
      = cw (ix2 (rule i j) (1 : Fin 2)) := by
  unfold tablesOf
  refine (concat_at1 _ _ _ j i _ rfl).trans ?_
  refine (truncf_apply (ψ := .bf16) _ bitsLt_bf16_f32 _).trans ?_
  exact (transpose_at _ i j).trans ((squeeze_at _ i j).trans ((plane1_at _ i j).trans (cw3_at cw i j 1)))

/-- Row `j`, column `1024 + i`: the offset of rule `(i, j)`. -/
theorem tables_at_b (cw : FVec Ideal S262144x2 .f32) (cb : FVec Ideal S262144x1 .f32) (i j : Fin 512) :
    tablesOf (F := Ideal) cw cb (ix2 j (⟨1024 + i.val, by have := i.isLt; omega⟩ : Fin 1536))
      = cb (ix2 (rule i j) (0 : Fin 1)) := by
  unfold tablesOf
  refine (concat_at2 _ _ _ j i _ rfl).trans ?_
  refine (truncf_apply (ψ := .bf16) _ bitsLt_bf16_f32 _).trans ?_
  exact (transpose_at _ i j).trans (cb2_at cb i j)

end Cert.KernelIdeal.HostTables

end
-- ==== Proof.LibColumn.lean ====
/-
  Column forms of two layout operations, read at an index: a length-a vector cast to an a-by-1 column,
  and an a-by-1 column broadcast across b columns. (A row sum kept as a column, then spread back over the row.)
-/
import Idealize.ShloMosaic.Lib.Pipeline.Value
import Idealize.ShloMosaic.Lib.ValueIdx

noncomputable section

namespace Cert.Lib.Column

open Idealize.ShloMosaic Idealize.ShloMosaic.ValueIdx

variable {α : Type}

/-- A length-`a` vector cast to an `a`-by-1 column reads, at `(i, u)`, the vector at `i`: both sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `a`-by-1 column broadcast to `a`-by-`b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Payload.lean ====
/-
  The kernel's stored value, read one batch row at a time, is the fuzzy inference system in its factored form.

  For a row `r` of the 128-row block with inputs `x0 = x[r, 0]`, `x1 = x[r, 1]` the kernel body computes
    • `a i = exp (0 - q²)`, `q = (x0 - p[0, i]) / p[2, i]`: the degrees of input 0 (rows 0 and 2 of the parameter array are its
      centres and widths), and `b j` likewise for input 1 from rows 1 and 3; on the extended reals `0 - t = -t`, so these are
      the Gaussian degrees of the specification;
    • one matrix product of `b` (narrowed to the 16-bit format, which changes nothing on the extended reals) with the
      512-by-1536 table array into a zero accumulator: at `(r, n)` it is `∑ j, b j * w[j, n]`;
    • three row sums `∑ i, a i * (product at column i, 512 + i, 1024 + i)`, the row sum of `a` and the row sum of `b`, each kept
      as a 128-by-1 column; a row sum starts from the constant zero, which is the sum's neutral element;
    • `(x0 * n0 + x1 * n1 + n2) / (sum a * sum b)`.
  That is `factored x0 x1 a b w0 w1 β` with the three tables read as `w0 i j = w[j, i]`, `w1 i j = w[j, 512 + i]`,
  `β i j = w[j, 1024 + i]` (contraction index `j` first). Every stage below reads one payload at an index written by its
  coordinates; the layout operations (slices, the identity casts, the row and column broadcasts, the cast of a vector to
  a column) only move indices.
-/
import proofs.«160476_j85203561218832_2_alg».proof.Proof.Gen.KernelIdeal.Skeleton
import proofs.«160476_j85203561218832_2_alg».proof.Proof.Spec
import proofs.«160476_j85203561218832_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Anfis
open scoped BigOperators

section Stages

variable (x : Vec Ideal S128x2 .f32) (p : Vec Ideal S8x512 .f32) (w : Vec Ideal S512x1536 .bf16)

/-! ## The inputs and the parameter rows -/

/-- Column 0 of the input block, kept as a 128-by-1 column: at `(r, u)` it is `x[r, 0]`. -/
theorem pay2_at (r : Fin 128) (u : Fin 1) : k0_pay2 (F := Ideal) x (ix2 r u) = x (ix2 r (0 : Fin 2)) := by
  unfold k0_pay2
  exact slice2_axis1_apply 0 x slices_S128x2_o0_0_S128x1 r u (0 : Fin 2) (by have := u.isLt; show 0 = 0 + u.val; omega)

/-- Column 1 of the input block: at `(r, u)` it is `x[r, 1]`. -/
theorem pay3_at (r : Fin 128) (u : Fin 1) : k0_pay3 (F := Ideal) x (ix2 r u) = x (ix2 r (1 : Fin 2)) := by
  unfold k0_pay3
  exact slice2_axis1_apply 1 x slices_S128x2_o0_1_S128x1 r u (1 : Fin 2) (by have := u.isLt; show 1 = 1 + u.val; omega)

/-- The parameter array cast to its own shape is itself. -/
theorem pay4_eq : k0_pay4 (F := Ideal) p = p := by
  unfold k0_pay4
  exact shapeCast_self p shapeCasts_S8x512_S8x512

/-- Row `k` of the parameter array, cut out and spread over the 128 batch rows: at `(r, i)` it is `p[k, i]`. -/
theorem row_at (o : Nat) (h : S8x512.Slices ![o, 0] S1x512) (k : Fin 8) (hk : k.val = o) (r : Fin 128) (i : Fin 512) :
    broadcastTo S128x512 (extractStridedSlice S1x512 ![o, 0] (k0_pay4 (F := Ideal) p) h) broadcasts_S1x512_S128x512 (ix2 r i)
      = p (ix2 k i) := by
  rw [broadcastTo_1b_ab_apply, slice2_axis0_apply o _ h (0 : Fin 1) i k (by show k.val = o + 0; omega), pay4_eq]

/-! ## The membership degrees -/

/-- The degrees of input 0: at `(r, i)`, `exp (0 - q * q)` with `q = (x[r, 0] - p[0, i]) / p[2, i]`, and `0 - t = -t`. -/
theorem pay5_at (r : Fin 128) (i : Fin 512) :
    k0_pay5 (F := Ideal) x p (ix2 r i) = gauss (x (ix2 r (0 : Fin 2))) (p (ix2 (0 : Fin 8) i)) (p (ix2 (2 : Fin 8) i)) := by
  have h9 : broadcastTo S128x512 (k0_pay2 (F := Ideal) x) broadcasts_S128x1_S128x512 (ix2 r i) = x (ix2 r (0 : Fin 2)) := by
    rw [Cert.Lib.Column.broadcastTo_a1_ab_apply, pay2_at]
  have h10 := row_at p 0 slices_S8x512_o0_0_S1x512 (0 : Fin 8) rfl r i
  have h12 := row_at p 2 slices_S8x512_o2_0_S1x512 (2 : Fin 8) rfl r i
  unfold k0_pay5
  simp only [Idealize.ShloMosaic.exp, subf, mulf, divf, broadcast, h9, h10, h12, Ideal.exp_def, Ideal.subf_def,
    Ideal.ofBits_def, Ideal.ofBits_zero_f32, zero_sub, Ideal.mulf_def, Ideal.divf_def]
  rfl

/-- The degrees of input 1: at `(r, j)`, the same with `x[r, 1]`, `p[1, j]` and `p[3, j]`. -/
theorem pay6_at (r : Fin 128) (j : Fin 512) :
    k0_pay6 (F := Ideal) x p (ix2 r j) = gauss (x (ix2 r (1 : Fin 2))) (p (ix2 (1 : Fin 8) j)) (p (ix2 (3 : Fin 8) j)) := by
  have h18 : broadcastTo S128x512 (k0_pay3 (F := Ideal) x) broadcasts_S128x1_S128x512 (ix2 r j) = x (ix2 r (1 : Fin 2)) := by
    rw [Cert.Lib.Column.broadcastTo_a1_ab_apply, pay3_at]
  have h19 := row_at p 1 slices_S8x512_o1_0_S1x512 (1 : Fin 8) rfl r j
  have h21 := row_at p 3 slices_S8x512_o3_0_S1x512 (3 : Fin 8) rfl r j
  unfold k0_pay6
  simp only [Idealize.ShloMosaic.exp, subf, mulf, divf, broadcast, h18, h19, h21, Ideal.exp_def, Ideal.subf_def,
    Ideal.ofBits_def, Ideal.ofBits_zero_f32, zero_sub, Ideal.mulf_def, Ideal.divf_def]
  rfl

/-! ## The matrix product

The product contracts the left operand's axis 1 with the right operand's axis 0: the left operand is read at
`(r, k)` and the right at `(k, n)`, `k` the one contraction coordinate. -/

theorem lhs7_0 (i : S128x1536.Idx) (q : dot_S128x512_S512x1536_S128x1536_1_0_0_1_n_n.contr.Idx) :
    (dot_S128x512_S512x1536_S128x1536_1_0_0_1_n_n.lhsIdx i q 0).val = (i 0).val := by
  unfold DotDims.lhsIdx
  rw [dif_neg (show ¬(0 : Fin S128x512.rank) ∈ dot_S128x512_S512x1536_S128x1536_1_0_0_1_n_n.lhsBatch by decide),
    dif_pos (show (0 : Fin S128x512.rank) ∈ dot_S128x512_S512x1536_S128x1536_1_0_0_1_n_n.lhsNonContracting by decide)]
  rfl
theorem lhs7_1 (i : S128x1536.Idx) (q : dot_S128x512_S512x1536_S128x1536_1_0_0_1_n_n.contr.Idx) :
    (dot_S128x512_S512x1536_S128x1536_1_0_0_1_n_n.lhsIdx i q 1).val = (q ⟨0, by decide⟩).val :=
  dot_S128x512_S512x1536_S128x1536_1_0_0_1_n_n.lhsIdx_val_of_single rfl i q
theorem rhs7_0 (i : S128x1536.Idx) (q : dot_S128x512_S512x1536_S128x1536_1_0_0_1_n_n.contr.Idx) :
    (dot_S128x512_S512x1536_S128x1536_1_0_0_1_n_n.rhsIdx i q 0).val = (q ⟨0, by decide⟩).val :=
  dot_S128x512_S512x1536_S128x1536_1_0_0_1_n_n.rhsIdx_val_of_single rfl i q
theorem rhs7_1 (i : S128x1536.Idx) (q : dot_S128x512_S512x1536_S128x1536_1_0_0_1_n_n.contr.Idx) :
    (dot_S128x512_S512x1536_S128x1536_1_0_0_1_n_n.rhsIdx i q 1).val = (i 1).val := by
  unfold DotDims.rhsIdx
  rw [dif_neg (show ¬(1 : Fin S512x1536.rank) ∈ dot_S128x512_S512x1536_S128x1536_1_0_0_1_n_n.rhsBatch by decide),
    dif_pos (show (1 : Fin S512x1536.rank) ∈ dot_S128x512_S512x1536_S128x1536_1_0_0_1_n_n.rhsNonContracting by decide)]
  rfl

/-- The product of input 1's degrees with the table array, into a zero accumulator: at `(r, n)` it is
    `∑ j, b[r, j] * w[j, n]`. The narrowing of the left operand to the 16-bit format and the identity cast of the right
    operand change nothing. -/
theorem pay7_at (r : Fin 128) (n : Fin 1536) :
    k0_pay7 (F := Ideal) x p w (ix2 r n) = ∑ j : Fin 512, k0_pay6 (F := Ideal) x p (ix2 r j) * w (ix2 j n) := by
  unfold k0_pay7
  refine (Ideal.matmul_constant_zero_apply dot_S128x512_S512x1536_S128x1536_1_0_0_1_n_n none _ _ (ix2 r n)).trans ?_
  rw [← Equiv.sum_comp (contrEquiv1 dot_S128x512_S512x1536_S128x1536_1_0_0_1_n_n 512 rfl rfl).symm]
  refine Finset.sum_congr rfl fun k _ => ?_
  have hk := contrEquiv1_symm_val dot_S128x512_S512x1536_S128x1536_1_0_0_1_n_n 512 rfl rfl k
  have el : dot_S128x512_S512x1536_S128x1536_1_0_0_1_n_n.lhsIdx (ix2 r n)
      ((contrEquiv1 dot_S128x512_S512x1536_S128x1536_1_0_0_1_n_n 512 rfl rfl).symm k) = ix2 r k := funext fun a => Fin.ext (by
    match a with
    | ⟨0, _⟩ => exact lhs7_0 _ _
    | ⟨1, _⟩ => exact (lhs7_1 _ _).trans hk)
  have er : dot_S128x512_S512x1536_S128x1536_1_0_0_1_n_n.rhsIdx (ix2 r n)
      ((contrEquiv1 dot_S128x512_S512x1536_S128x1536_1_0_0_1_n_n 512 rfl rfl).symm k) = ix2 k n := funext fun a => Fin.ext (by
    match a with
    | ⟨0, _⟩ => exact (rhs7_0 _ _).trans hk
    | ⟨1, _⟩ => exact rhs7_1 _ _)
  rw [el, er, shapeCast_self]
  rfl

/-! ## The row sums -/

/-- A sum along the rows of a 128-by-512 array from the neutral element zero, kept as a 128-by-1 column, read at
    `(r, u)`: the sum of row `r`. -/
theorem rowSum_at (src : FVec Ideal S128x512 .f32) (r : Fin 128) (u : Fin 1) :
    shapeCast S128x1 (multiReduction .add [1] S128 src 0x00000000#32 reduces_S128x512_S128 (.inl rfl) rfl)
        shapeCasts_S128_S128x1 (ix2 r u) = ∑ i : Fin 512, src (ix2 r i) := by
  refine (Cert.Lib.Column.shapeCast_a_a1_apply _ shapeCasts_S128_S128x1 r u).trans ?_
  refine (Ideal.multiReduction_add_single src 0x00000000#32 reduces_S128x512_S128 (.inl rfl) rfl (ix1 r)).trans ?_
  refine Finset.sum_congr rfl fun k _ => congrArg src ?_
  funext c
  match c with
  | ⟨0, _⟩ => rfl
  | ⟨1, _⟩ => rfl

/-- The first weighted row sum: `∑ i, a[r, i] * (product at column i)`. -/
theorem pay8_at (r : Fin 128) (u : Fin 1) :
    k0_pay8 (F := Ideal) x p w (ix2 r u) =
      ∑ i : Fin 512, k0_pay5 (F := Ideal) x p (ix2 r i) *
        k0_pay7 (F := Ideal) x p w (ix2 r (⟨i.val, by have := i.isLt; omega⟩ : Fin 1536)) := by
  unfold k0_pay8
  refine (rowSum_at _ r u).trans ?_
  refine Finset.sum_congr rfl fun i _ => ?_
  rw [mulf_apply, slice2_axis1_apply 0 _ slices_S128x1536_o0_0_S128x512 r i (⟨i.val, by have := i.isLt; omega⟩ : Fin 1536)
    (by show i.val = 0 + i.val; omega)]

/-- The second: `∑ i, a[r, i] * (product at column 512 + i)`. -/
theorem pay9_at (r : Fin 128) (u : Fin 1) :
    k0_pay9 (F := Ideal) x p w (ix2 r u) =
      ∑ i : Fin 512, k0_pay5 (F := Ideal) x p (ix2 r i) *
        k0_pay7 (F := Ideal) x p w (ix2 r (⟨512 + i.val, by have := i.isLt; omega⟩ : Fin 1536)) := by
  unfold k0_pay9
  refine (rowSum_at _ r u).trans ?_
  refine Finset.sum_congr rfl fun i _ => ?_
  rw [mulf_apply, slice2_axis1_apply 512 _ slices_S128x1536_o0_512_S128x512 r i (⟨512 + i.val, by have := i.isLt; omega⟩ : Fin 1536) rfl]

/-- The third: `∑ i, a[r, i] * (product at column 1024 + i)`. -/
theorem pay10_at (r : Fin 128) (u : Fin 1) :
    k0_pay10 (F := Ideal) x p w (ix2 r u) =
      ∑ i : Fin 512, k0_pay5 (F := Ideal) x p (ix2 r i) *
        k0_pay7 (F := Ideal) x p w (ix2 r (⟨1024 + i.val, by have := i.isLt; omega⟩ : Fin 1536)) := by
  unfold k0_pay10
  refine (rowSum_at _ r u).trans ?_
  refine Finset.sum_congr rfl fun i _ => ?_
  rw [mulf_apply, slice2_axis1_apply 1024 _ slices_S128x1536_o0_1024_S128x512 r i (⟨1024 + i.val, by have := i.isLt; omega⟩ : Fin 1536) rfl]

/-- The total of input 0's degrees in row `r`. -/
theorem pay11_at (r : Fin 128) (u : Fin 1) :
    k0_pay11 (F := Ideal) x p (ix2 r u) = ∑ i : Fin 512, k0_pay5 (F := Ideal) x p (ix2 r i) := by
  unfold k0_pay11
  exact rowSum_at _ r u

/-! ## The quotient -/

/-- The stored value at `(r, u)` from its seven operands at that row: the affine combination of the three weighted sums
    over the product of the two totals (the second total, of the operand `v26`, is taken here). -/
theorem pay1_at (v1 v2 : FVec Ideal S128x1 .f32) (v26 : FVec Ideal S128x512 .f32) (v36 v39 v42 v44 : FVec Ideal S128x1 .f32)
    (r : Fin 128) (u : Fin 1) :
    k0_pay1 (F := Ideal) v1 v2 v26 v36 v39 v42 v44 (ix2 r u) =
      Ideal.div (v1 (ix2 r u) * v36 (ix2 r u) + v2 (ix2 r u) * v39 (ix2 r u) + v42 (ix2 r u))
        (v44 (ix2 r u) * ∑ j : Fin 512, v26 (ix2 r j)) :=
  congrArg (fun s => Ideal.div (v1 (ix2 r u) * v36 (ix2 r u) + v2 (ix2 r u) * v39 (ix2 r u) + v42 (ix2 r u)) (v44 (ix2 r u) * s))
    (rowSum_at v26 r u)

end Stages

/-- THE KERNEL ROW BY ROW: element `(r, 0)` of the block the kernel body stores is the factored output of row `r`, with the
    degrees read from the parameter rows and the three tables read from the table array, contraction index first. -/
theorem stored_at (x : Vec Ideal S128x2 .f32) (p : Vec Ideal S8x512 .f32) (w : Vec Ideal S512x1536 .bf16) (r : Fin 128) :
    k0_pay1 (F := Ideal) (k0_pay2 x) (k0_pay3 x) (k0_pay6 x p) (k0_pay8 x p w) (k0_pay9 x p w) (k0_pay10 x p w) (k0_pay11 x p) (ix2 r (0 : Fin 1))
    = factored (x (ix2 r (0 : Fin 2))) (x (ix2 r (1 : Fin 2)))
        (fun i => gauss (x (ix2 r (0 : Fin 2))) (p (ix2 (0 : Fin 8) i)) (p (ix2 (2 : Fin 8) i)))
        (fun j => gauss (x (ix2 r (1 : Fin 2))) (p (ix2 (1 : Fin 8) j)) (p (ix2 (3 : Fin 8) j)))
        (fun i j => w (ix2 j (⟨i.val, by have := i.isLt; omega⟩ : Fin 1536)))
        (fun i j => w (ix2 j (⟨512 + i.val, by have := i.isLt; omega⟩ : Fin 1536)))
        (fun i j => w (ix2 j (⟨1024 + i.val, by have := i.isLt; omega⟩ : Fin 1536))) := by
  rw [pay1_at, pay2_at, pay3_at, pay8_at, pay9_at, pay10_at, pay11_at]
  simp only [pay7_at, pay5_at, pay6_at]
  rfl

end Cert.KernelIdeal.Payload

end
-- ==== Proof.KernelResult.lean ====
/-
  What the idealized kernel program leaves in its result array, as one function of the five argument arrays.

  Row `R` of the 256 x 1 result is computed by grid point `R / 128`, from row `R` of the input (the point's 128 x 2 block is
  rows `128 t .. 128 t + 127`), the whole parameter array and the whole table array. The body's stored value read at a row
  is Spec's `factored` of that row's two inputs, the membership degrees built from rows 0-3 of the parameter array, and the
  three tables (Proof/Payload.lean); the parameter rows are the centres and widths (Proof/HostParams.lean) and the table
  entries the consequent weights and biases of rule `512 i + j` (Proof/HostTables.lean). The two points' blocks together
  cover the 256 rows, so the array after the run is `outOf` of the arguments everywhere.
-/
import proofs.«160476_j85203561218832_2_alg».proof.Proof.KernelIdealRegion
import proofs.«160476_j85203561218832_2_alg».proof.Proof.HostParams
import proofs.«160476_j85203561218832_2_alg».proof.Proof.HostTables
import proofs.«160476_j85203561218832_2_alg».proof.Proof.Payload
import proofs.«160476_j85203561218832_2_alg».proof.Proof.Spec
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Region Cert.KernelIdeal.HostParams Cert.KernelIdeal.HostTables
open Cert.Anfis Idealize.ShloMosaic Idealize.ShloMosaic.TcCoe Idealize.ShloMosaic.ValueIdx Idealize.SL.Sem
open Idealize.ShloMosaic.Pipeline (Dat)

/-- The result array as a function of the argument arrays: row `R` is the factored form of row `R`'s output. -/
def outOf (X : FVec Ideal S256x2 .f32) (mean sigma : FVec Ideal S2x512 .f32) (cw : FVec Ideal S262144x2 .f32)
    (cb : FVec Ideal S262144x1 .f32) : FVec Ideal S256x1 .f32 := fun i =>
  factored (X (ix2 (i 0) (0 : Fin 2))) (X (ix2 (i 0) (1 : Fin 2)))
    (fun a => gauss (X (ix2 (i 0) (0 : Fin 2))) (mean (ix2 (0 : Fin 2) a)) (sigma (ix2 (0 : Fin 2) a)))
    (fun b => gauss (X (ix2 (i 0) (1 : Fin 2))) (mean (ix2 (1 : Fin 2) b)) (sigma (ix2 (1 : Fin 2) b)))
    (fun a b => cw (ix2 (rule a b) (0 : Fin 2))) (fun a b => cw (ix2 (rule a b) (1 : Fin 2)))
    (fun a b => cb (ix2 (rule a b) (0 : Fin 1)))

/-- The body's stored value at row `r` of its block is `outOf` at row `R` of the array, when the block's row `r` is the
    array's row `R`, the parameters are the packed centres and widths and the tables the transposed coefficient tables. -/
theorem stored_eq (X : FVec Ideal S256x2 .f32) (mean sigma : FVec Ideal S2x512 .f32) (cw : FVec Ideal S262144x2 .f32)
    (cb : FVec Ideal S262144x1 .f32) (x : Vec Ideal S128x2 .f32) (p : Vec Ideal S8x512 .f32) (w : Vec Ideal S512x1536 .bf16)
    (r : Fin 128) (R : Fin 256) (hx : ∀ f : Fin 2, x (ix2 r f) = X (ix2 R f)) (hp : p = paramsOf mean sigma)
    (hw : w = tablesOf cw cb) :
    stored x p w (ix2 r (0 : Fin 1)) = outOf X mean sigma cw cb (ix2 R (0 : Fin 1)) := by
  subst hp hw
  unfold stored
  rw [Cert.KernelIdeal.Payload.stored_at, hx 0, hx 1]
  unfold outOf
  simp only [params_row0, params_row1, params_row2, params_row3, tables_at_w0, tables_at_w1, tables_at_b]

variable (m : (ℓ : Loc nD τ sig) → Buf (Elt Ideal) ℓ) (ρ : Dev nD → PrngReg)

theorem zeroOffsets : (![0, 0] : Fin 2 → Nat) = fun _ => 0 := funext fun a => by fin_cases a <;> rfl

/-- The block index maps over the grid: the input's and the result's blocks move with the point along the rows, the
    parameters and the tables stay at block 0. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result array as the run leaves it, in terms of the launch contents. -/
abbrev resultOf (c : Dev nD) : FVec Ideal S256x1 .f32 :=
  outOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What point `t` writes back is block `t` of `resultOf`. -/
theorem flushed_eq (c : Dev nD) (t : Fin cfg0.N) :
    (dats m 0 c).flushed 3 t = ((cfg0.win 3).blk t).view.read (Elt Ideal) (resultOf m c) := by
  show (cfg0.win 3).cut (grid0.coords t) ((dats m 0 c).after 3 t) = _
  rw [after_3]
  unfold resultBlock
  rw [View.canon_unit_zero zeroOffsets]
  simp only [View.ld_unit_zero (S := S128x2) zeroOffsets, View.ld_unit_zero (S := S8x512) zeroOffsets,
    View.ld_unit_zero (S := S512x1536) zeroOffsets]
  obtain ⟨e00, e01, e10, e11, e20, e21, e30, e31⟩ := block_indices t
  have ht : t.val < 2 := by have h := t.isLt; have hN : cfg0.N = 2 := N_0; omega
  funext y
  obtain ⟨r, u, rfl⟩ : ∃ (r : Fin 128) (u : Fin 1), y = ix2 r u := ⟨y 0, y 1, eq_ix2 y⟩
  obtain rfl : u = 0 := Fin.ext (by have := u.isLt; omega)
  have hR : 128 * t.val + r.val < 256 := by have := r.isLt; omega
  have hemb : ((cfg0.win 3).blk t).view.emb (ix2 r (0 : Fin 1)) = ix2 (⟨128 * t.val + r.val, hR⟩ : Fin 256) (0 : Fin 1) := by
    funext a; apply Fin.ext; revert a
    refine Fin.forall_fin_two.2 ⟨?_, ?_⟩
    · show win0_3.index t (0 : Fin 2) * 128 + 1 * r.val = 128 * t.val + r.val; omega
    · show win0_3.index t (1 : Fin 2) * 1 + 1 * 0 = 0; omega
  rw [View.read_apply, hemb]
  refine stored_eq _ _ _ _ _ (blockAt m c 0 t) (blockAt m c 1 t) (blockAt m c 2 t) r ⟨128 * t.val + r.val, hR⟩ ?_ ?_ ?_
  · intro f
    show entry m c main_arg0 (((cfg0.win 0).blk t).view.emb (ix2 r f)) = _
    rw [entry_of_arg m c main_arg0 (.inl rfl)]
    refine congrArg _ (funext fun a => Fin.ext ?_)
    revert a
    refine Fin.forall_fin_two.2 ⟨?_, ?_⟩
    · show win0_0.index t (0 : Fin 2) * 128 + 1 * r.val = 128 * t.val + r.val; omega
    · show win0_0.index t (1 : Fin 2) * 2 + 1 * f.val = f.val; omega
  · funext y
    show entry m c main_v26 (((cfg0.win 1).blk t).view.emb y) = _
    rw [← entry_params]
    refine congrArg _ (funext fun a => Fin.ext ?_)
    revert a
    refine Fin.forall_fin_two.2 ⟨?_, ?_⟩
    · show win0_1.index t (0 : Fin 2) * 8 + 1 * (y 0).val = (y 0).val; omega
    · show win0_1.index t (1 : Fin 2) * 512 + 1 * (y 1).val = (y 1).val; omega
  · funext y
    show entry m c main_v13 (((cfg0.win 2).blk t).view.emb y) = _
    rw [← entry_tables]
    refine congrArg _ (funext fun a => Fin.ext ?_)
    revert a
    refine Fin.forall_fin_two.2 ⟨?_, ?_⟩
    · show win0_2.index t (0 : Fin 2) * 512 + 1 * (y 0).val = (y 0).val; omega
    · show win0_2.index t (1 : Fin 2) * 1536 + 1 * (y 1).val = (y 1).val; omega

/-- An index of the result array is in point `t`'s block iff each coordinate is in the block's range on its axis. -/
theorem mem_block (t : Fin cfg0.N) (i : S256x1.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v27).slice (win0_3.rect t)).set ↔ _
  rw [View.set_slice_whole, Rect.mem_set_unit]
  exact Iff.rfl

/-- Every row is in the block of the point `row / 128`. -/
theorem covered (i : S256x1.Idx) : ∃ t : Fin cfg0.N, (cfg0.win 3).flush t = true ∧ i ∈ ((cfg0.win 3).blk t).view.set := by
  have h0 : (i 0).val < 256 := (i 0).isLt
  have h1 : (i 1).val < 1 := (i 1).isLt
  let t : Fin cfg0.N := ⟨(i 0).val / 128, by rw [show cfg0.N = 2 from N_0]; omega⟩
  obtain ⟨-, -, -, -, -, -, e30, e31⟩ := block_indices t
  have et : t.val = (i 0).val / 128 := rfl
  refine ⟨t, flush0_3 t, ?_⟩
  rw [mem_block]
  refine Fin.forall_fin_two.2 ⟨?_, ?_⟩
  · show win0_3.index t (0 : Fin 2) * 128 ≤ (i 0).val ∧ (i 0).val < win0_3.index t (0 : Fin 2) * 128 + 128; omega
  · show win0_3.index t (1 : Fin 2) * 1 ≤ (i 1).val ∧ (i 1).val < win0_3.index t (1 : Fin 2) * 1 + 1; omega

/-- The result array after the run. -/
theorem final (c : Dev nD) : (dats m 0 c).arrAt 3 cfg0.N = resultOf m c :=
  (dats m 0 c).arrAt_eq_of_cover 3 (resultOf m c) (fun t _ => flushed_eq m c t) (covered)

/-- The run, read: the result array ends at `resultOf` of the launch contents and the five arguments unchanged. -/
theorem run : θ_run defs (onTc (τ := τ) (main (F := Ideal))) ⟨m, fun _ => 0, ρ⟩ (fun r => ∀ c : Dev nD,
      r.2.mem ((c.tc : Thread nD τ).loc main_v27) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 3).trans (final m c),
      ((h c).1 0).trans (((dats m 0 c).arrAt_in 0 rfl _).trans ((dats_A m c 0).trans (entry_of_arg m c main_arg0 (.inl rfl)))),
      ((h c).2 main_arg1 (Pipeline.mem_restRefs_of main_arg1 (by decide) (by decide))).trans (entry_of_arg m c main_arg1 (.inr (.inl rfl))),
      ((h c).2 main_arg2 (Pipeline.mem_restRefs_of main_arg2 (by decide) (by decide))).trans (entry_of_arg m c main_arg2 (.inr (.inr (.inl rfl)))),
      ((h c).2 main_arg3 (Pipeline.mem_restRefs_of main_arg3 (by decide) (by decide))).trans (entry_of_arg m c main_arg3 (.inr (.inr (.inr (.inl rfl))))),
      ((h c).2 main_arg4 (Pipeline.mem_restRefs_of main_arg4 (by decide) (by decide))).trans (entry_of_arg m c main_arg4 (.inr (.inr (.inr (.inr rfl)))))⟩)
    (run_main m ρ)

end Cert.KernelIdeal.Result

end
-- ==== Proof.RefRules.lean ====
/-
  The reference program, read one batch row at a time, is the fuzzy inference system "rule by rule".

  The reference computes, for batch row `p` with inputs `x0 = x[p, 0]` and `x1 = x[p, 1]`:
    • the membership degrees `mem[p, f, m] = exp (-((x[p, f] - mean[f, m]) / sigma[f, m])²)`, one per input `f` and fuzzy set `m`;
    • the rule strengths `fs[p, k] = mem[p, 0, i] * mem[p, 1, j]` for rule number `k = 512 · i + j` (the outer product of the two
      inputs' degrees, flattened row-major: the first input's set index `i` is the slow coordinate, `i = k / 512`, `j = k % 512`);
    • the normalised strengths `fs[p, k] / ∑ k', fs[p, k']`;
    • the proposals `x[p, 0] * cw[k, 0] + x[p, 1] * cw[k, 1] + cb[k, 0]` (a two-term dot product plus the bias);
    • the output `∑ k, proposal[p, k] * normalised[p, k]`.

  Every stage below reads the generated value of one operation (or of a short chain of layout operations) at an index
  written by its coordinates. The layout operations (broadcasts, slices, reshapes, the transpose) only move indices: each
  composed index function is identified with an `ix2` / `ix3` form coordinate by coordinate, the reshapes by the
  division-with-remainder arithmetic `(a · n + b) / n = a`, `(a · n + b) % n = b` for `b < n`. The two float sums start from the
  constant `0`, and `0 + s = s`. The sums over the 262144 rule numbers are re-indexed as double sums over the pairs `(i, j)`
  through the bijection `(i, j) ↦ 512 · i + j`. No finiteness of any input is needed: the statement is an identity of
  extended-real expressions, term by term.
-/
import proofs.«160476_j85203561218832_2_alg».proof.Proof.Spec
import proofs.«160476_j85203561218832_2_alg».proof.Proof.Gen.ReferenceIdeal.Read

noncomputable section

namespace Cert.Anfis.Ref

open Cert.ReferenceIdeal Cert.ReferenceIdeal.Read Idealize.ShloMosaic Idealize.ShloMosaic.ValueIdx
open scoped BigOperators

/-! ## Rule numbers and pairs -/

/-- Rule numbering is a bijection between the pairs `(i, j)` and the 262144 rule numbers: `k = 512 · i + j`,
    with inverse `i = k / 512`, `j = k % 512`. -/
def ruleEquiv : Fin 512 × Fin 512 ≃ Fin 262144 where
  toFun q := rule q.1 q.2
  invFun k := (⟨k.val / 512, by have := k.isLt; omega⟩, ⟨k.val % 512, by omega⟩)
  left_inv q := by
    obtain ⟨i, j⟩ := q
    have hi := i.isLt; have hj := j.isLt
    refine Prod.ext (Fin.ext ?_) (Fin.ext ?_)
    · show (i.val * 512 + j.val) / 512 = i.val; omega
    · show (i.val * 512 + j.val) % 512 = j.val; omega
  right_inv k := by
    refine Fin.ext ?_
    show k.val / 512 * 512 + k.val % 512 = k.val
    omega

/-- A sum over the rule numbers is the double sum over the pairs, first input's set index outermost. -/
theorem sum_rule {M : Type*} [AddCommMonoid M] (g : Fin 262144 → M) :
    ∑ k, g k = ∑ i : Fin 512, ∑ j : Fin 512, g (rule i j) := by
  rw [← Equiv.sum_comp ruleEquiv g, Fintype.sum_prod_type]
  rfl

section Stages

variable (x0 : (⟨S256x2, .f32⟩ : BufTy).Contents (Elt Ideal)) (x1 x2 : (⟨S2x512, .f32⟩ : BufTy).Contents (Elt Ideal))
  (x3 : (⟨S262144x2, .f32⟩ : BufTy).Contents (Elt Ideal)) (x4 : (⟨S262144x1, .f32⟩ : BufTy).Contents (Elt Ideal))

/-! ## The membership degrees -/

/-- The membership layer at `[p, f, m]`: the inputs are broadcast along the set axis and the centres and widths along the
    batch axis, so the element is the Gaussian degree of `x[p, f]` in set `m` of input `f`. -/
theorem mem_at (p : Fin 256) (f : Fin 2) (m : Fin 512) :
    val_main_v10 (F := Ideal) x0 x1 x2 (ix3 p f m) = gauss (x0 (ix2 p f)) (x1 (ix2 f m)) (x2 (ix2 f m)) := by
  have e0 : idx_main_v0 (idx_main_v2 (ix3 p f m)) = ix2 p f := by
    funext a; match a with | ⟨0, _⟩ => rfl | ⟨1, _⟩ => rfl
  have e1 : idx_main_v1 (idx_main_v3 (ix3 p f m)) = ix2 f m := by
    funext a; match a with | ⟨0, _⟩ => rfl | ⟨1, _⟩ => rfl
  have e5 : idx_main_v5 (idx_main_v6 (ix3 p f m)) = ix2 f m := by
    funext a; match a with | ⟨0, _⟩ => rfl | ⟨1, _⟩ => rfl
  rw [val_main_v10_apply, val_main_v9_apply, val_main_v8_apply, val_main_v7_apply, val_main_v4_apply,
    val_main_v2_apply, val_main_v0_apply, val_main_v3_apply, val_main_v1_apply, val_main_v6_apply, val_main_v5_apply,
    e0, e1, e5]
  rfl

/-! ## The rule strengths -/

/-- The first factor of the outer product at `[p, i, j]`: input 0's degrees (slice `f = 0`, reshaped `256x1x512 → 256x512`,
    then broadcast along the last axis), so it does not depend on `j`. -/
theorem left_at (p : Fin 256) (i j : Fin 512) :
    val_main_v17 (F := Ideal) x0 x1 x2 (ix3 p i j) = val_main_v10 (F := Ideal) x0 x1 x2 (ix3 p (0 : Fin 2) i) := by
  have e : idx_main_v11 (idx_main_v12 (idx_main_v13 (idx_main_v17 (ix3 p i j)))) = ix3 p (0 : Fin 2) i := by
    have hp := p.isLt; have hi := i.isLt
    funext a
    match a with
    | ⟨0, _⟩ => exact Fin.ext (by show (p.val * 512 + i.val) / 512 = p.val; omega)
    | ⟨1, _⟩ => rfl
    | ⟨2, _⟩ => exact Fin.ext (by show (p.val * 512 + i.val) % 512 = i.val; omega)
  rw [val_main_v17_apply, val_main_v13_apply, val_main_v12_apply, val_main_v11_apply, e]

/-- The second factor at `[p, i, j]`: input 1's degrees (slice `f = 1`, reshaped, then broadcast along the middle axis), so
    it does not depend on `i`. -/
theorem right_at (p : Fin 256) (i j : Fin 512) :
    val_main_v18 (F := Ideal) x0 x1 x2 (ix3 p i j) = val_main_v10 (F := Ideal) x0 x1 x2 (ix3 p (1 : Fin 2) j) := by
  have e : idx_main_v14 (idx_main_v15 (idx_main_v16 (idx_main_v18 (ix3 p i j)))) = ix3 p (1 : Fin 2) j := by
    have hp := p.isLt; have hj := j.isLt
    funext a
    match a with
    | ⟨0, _⟩ => exact Fin.ext (by show (p.val * 512 + j.val) / 512 = p.val; omega)
    | ⟨1, _⟩ => rfl
    | ⟨2, _⟩ => exact Fin.ext (by show (p.val * 512 + j.val) % 512 = j.val; omega)
  rw [val_main_v18_apply, val_main_v16_apply, val_main_v15_apply, val_main_v14_apply, e]

/-- The strength of rule `512 · i + j` in row `p` is the product of the two degrees: the reshape `256x512x512 → 256x262144` is
    row-major, so flat position `512 · i + j` of row `p` is element `[p, i, j]`. -/
theorem strength_at (p : Fin 256) (i j : Fin 512) :
    val_main_v20 (F := Ideal) x0 x1 x2 (ix2 p (rule i j)) =
      gauss (x0 (ix2 p 0)) (x1 (ix2 0 i)) (x2 (ix2 0 i)) * gauss (x0 (ix2 p 1)) (x1 (ix2 1 j)) (x2 (ix2 1 j)) := by
  have e : idx_main_v20 (ix2 p (rule i j)) = ix3 p i j := by
    have hp := p.isLt; have hi := i.isLt; have hj := j.isLt
    funext a
    match a with
    | ⟨0, _⟩ => exact Fin.ext (by show (p.val * 262144 + (i.val * 512 + j.val)) / 262144 = p.val; omega)
    | ⟨1, _⟩ => exact Fin.ext (by show (p.val * 262144 + (i.val * 512 + j.val)) / 512 % 512 = i.val; omega)
    | ⟨2, _⟩ => exact Fin.ext (by show (p.val * 262144 + (i.val * 512 + j.val)) % 512 = j.val; omega)
  rw [val_main_v20_apply, e, val_main_v19_apply, left_at, right_at, mem_at, mem_at]
  rfl

/-- The total strength of row `p`: the float sum starts from the constant zero, and the sum over the rule numbers is the
    double sum over the pairs. -/
theorem total_at (p : Fin 256) :
    val_main_v21 (F := Ideal) x0 x1 x2 (ix1 p) =
      ∑ i : Fin 512, ∑ j : Fin 512,
        gauss (x0 (ix2 p 0)) (x1 (ix2 0 i)) (x2 (ix2 0 i)) * gauss (x0 (ix2 p 1)) (x1 (ix2 1 j)) (x2 (ix2 1 j)) := by
  rw [val_main_v21_apply, val_main_cst_apply, Ideal.ofBits_def, Ideal.ofBits_zero_f32, zero_add, sum_rule]
  refine Finset.sum_congr rfl fun i _ => Finset.sum_congr rfl fun j _ => ?_
  have e : idx_main_v21 (ix1 p) (rule i j) = ix2 p (rule i j) := by
    funext a; match a with | ⟨0, _⟩ => rfl | ⟨1, _⟩ => rfl
  rw [e, strength_at]

/-- The normalised strength of rule `512 · i + j` in row `p`: its strength over the row's total (broadcast back along the
    rule axis). -/
theorem share_at (p : Fin 256) (i j : Fin 512) :
    val_main_v24 (F := Ideal) x0 x1 x2 (ix2 p (rule i j)) =
      Ideal.div
        (gauss (x0 (ix2 p 0)) (x1 (ix2 0 i)) (x2 (ix2 0 i)) * gauss (x0 (ix2 p 1)) (x1 (ix2 1 j)) (x2 (ix2 1 j)))
        (∑ i' : Fin 512, ∑ j' : Fin 512,
          gauss (x0 (ix2 p 0)) (x1 (ix2 0 i')) (x2 (ix2 0 i')) * gauss (x0 (ix2 p 1)) (x1 (ix2 1 j')) (x2 (ix2 1 j'))) := by
  have e : idx_main_v22 (idx_main_v23 (ix2 p (rule i j))) = ix1 p := by
    funext a; match a with | ⟨0, _⟩ => rfl
  rw [val_main_v24_apply, val_main_v23_apply, val_main_v22_apply, e, total_at, strength_at, Ideal.hostDivf_def]

/-! ## The proposals -/

/-- Rule `k`'s proposal in row `p`: the two-term dot product of the row's inputs with the rule's weights (the weights are
    transposed first, so the contraction reads `cw[k, 0]` and `cw[k, 1]`), plus the rule's bias. -/
theorem proposal_at (p : Fin 256) (k : Fin 262144) :
    val_main_v30 (F := Ideal) x0 x3 x4 (ix2 p k) =
      x0 (ix2 p 0) * x3 (ix2 k 0) + x0 (ix2 p 1) * x3 (ix2 k 1) + x4 (ix2 k 0) := by
  have el : ∀ q : Fin 2, lidx_main_v26 (ix2 p k) q = ix2 p q := fun q => by
    funext a; match a with | ⟨0, _⟩ => rfl | ⟨1, _⟩ => rfl
  have er : ∀ q : Fin 2, idx_main_v25 (ridx_main_v26 (ix2 p k) q) = ix2 k q := fun q => by
    funext a; match a with | ⟨0, _⟩ => rfl | ⟨1, _⟩ => rfl
  have e4 : idx_main_v27 (idx_main_v28 (idx_main_v29 (ix2 p k))) = ix2 k (0 : Fin 1) := by
    funext a
    match a with
    | ⟨0, _⟩ => exact Fin.ext (Nat.div_one _)
    | ⟨1, _⟩ => rfl
  rw [val_main_v30_apply, val_main_v26_apply, Fin.sum_univ_two, val_main_v25_apply, val_main_v25_apply,
    el, el, er, er, val_main_v29_apply, val_main_v28_apply, val_main_v27_apply, e4, Ideal.addf_def]

end Stages

/-! ## The output -/

/-- THE REFERENCE ROW BY ROW: element `[p, 0]` of the reference's result is the rule-by-rule output of row `p` — every
    rule's proposal times its share of the total strength, summed over the pairs `(i, j)`. -/
theorem ref_row (x0 : (⟨S256x2, .f32⟩ : BufTy).Contents (Elt Ideal)) (x1 x2 : (⟨S2x512, .f32⟩ : BufTy).Contents (Elt Ideal))
    (x3 : (⟨S262144x2, .f32⟩ : BufTy).Contents (Elt Ideal)) (x4 : (⟨S262144x1, .f32⟩ : BufTy).Contents (Elt Ideal)) (p : Fin 256) :
    Cert.ReferenceIdeal.Read.val_main_v33 (F := Ideal) x0 x1 x2 x3 x4 (ValueIdx.ix2 p 0) =
      Cert.Anfis.byRules (x0 (ix2 p 0)) (x0 (ix2 p 1))
        (fun i => gauss (x0 (ix2 p 0)) (x1 (ix2 0 i)) (x2 (ix2 0 i)))
        (fun j => gauss (x0 (ix2 p 1)) (x1 (ix2 1 j)) (x2 (ix2 1 j)))
        (fun i j => x3 (ix2 (rule i j) 0)) (fun i j => x3 (ix2 (rule i j) 1)) (fun i j => x4 (ix2 (rule i j) 0)) := by
  have e33 : idx_main_v33 (ix2 p (0 : Fin 1)) = ix1 p := by
    funext a; match a with | ⟨0, _⟩ => rfl
  rw [val_main_v33_apply, e33, val_main_v32_apply, val_main_cst_0_apply, Ideal.ofBits_def, Ideal.ofBits_zero_f32,
    zero_add, sum_rule]
  unfold byRules
  refine Finset.sum_congr rfl fun i _ => Finset.sum_congr rfl fun j _ => ?_
  have e : idx_main_v32 (ix1 p) (rule i j) = ix2 p (rule i j) := by
    funext a; match a with | ⟨0, _⟩ => rfl | ⟨1, _⟩ => rfl
  rw [e, val_main_v31_apply, proposal_at, share_at, Ideal.mulf_def]

end Cert.Anfis.Ref

end
-- ==== Proof.PreReal.lean ====
/-
  What the precondition says of the five arguments, over the extended reals.

  The precondition is a conjunction of six `all`-reductions: for each of the five arguments, "every entry `v` has
  `|v| < +∞`", and, for the third argument (the widths), "every entry is different from `0`". An extended real whose
  absolute value `max v (-v)` is below `⊤` is neither `⊤` nor `⊥`, so it is a real number; hence every entry of every
  argument is a real, and every width is a nonzero real.
-/
import proofs.«160476_j85203561218832_2_alg».proof.Pre_finite_inputs
import proofs.«160476_j85203561218832_2_alg».proof.Proof.Gen.Pre_finite_inputs
import Idealize.ShloMosaic.Lib.ReduceAll
import Idealize.ShloMosaic.Lib.ValueIdx
import Idealize.ShloMosaic.PureOps.Ideal.Laws

namespace Cert.Anfis.Pre

open Idealize.ShloMosaic Cert.Pre_finite_inputs

/-- The rank-0 shape has one index. -/
instance : Subsingleton S_.Idx := ⟨fun a b => funext fun d => d.elim0⟩

/-- An extended real with `|v| < +∞` (the comparison against the pattern of `+∞` came out true) is a real. -/
theorem real_of_finite (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- An extended real that compared different from the pattern of `0` is not `0`. -/
theorem ne_zero_of_une (v : EReal) (h : Ideal.cmp .une v (Ideal.ofBits .f32 0x00000000#32) = 1#1) : v ≠ 0 := by
  rw [Ideal.ofBits_zero_f32] at h
  intro hv
  rw [hv] at h
  simp [Ideal.cmp] at h

/-- A conjunction of two one-bit rank-0 values that is 1 has both 1. -/
theorem and_split (a b : IVec S_ 1) (e : andi a b ValueIdx.ix0 = 1#1) :
    a ValueIdx.ix0 = 1#1 ∧ b ValueIdx.ix0 = 1#1 := IntOp.andi_eq_one.1 e

variable [Cert.Pre_finite_inputs.Facts]

/-- Under the precondition every entry of every argument is a real number, and every width is a nonzero real. -/
theorem reals_of_pre (x0 : FVec Ideal S256x2 .f32) (x1 x2 : FVec Ideal S2x512 .f32) (x3 : FVec Ideal S262144x2 .f32)
    (x4 : FVec Ideal S262144x1 .f32)
    (h : Cert.Pre_finite_inputs.fn (F := Ideal) x0 x1 x2 x3 x4 = (fun _ => 1#1)) :
    (∀ i, ∃ r : ℝ, x0 i = (r : EReal)) ∧ (∀ i, ∃ r : ℝ, x1 i = (r : EReal))
      ∧ (∀ i, ∃ r : ℝ, x2 i = (r : EReal) ∧ r ≠ 0) ∧ (∀ i, ∃ r : ℝ, x3 i = (r : EReal))
      ∧ (∀ i, ∃ r : ℝ, x4 i = (r : EReal)) := by
  have h0 := congrFun h ValueIdx.ix0
  dsimp only [Cert.Pre_finite_inputs.fn, Cert.Pre_finite_inputs.fn_part1] at h0
  obtain ⟨h0, hne⟩ := and_split _ _ h0
  obtain ⟨h0, hx4⟩ := and_split _ _ h0
  obtain ⟨h0, hx3⟩ := and_split _ _ h0
  obtain ⟨h0, hx2⟩ := and_split _ _ h0
  obtain ⟨hx0, hx1⟩ := and_split _ _ h0
  refine ⟨fun i => ?_, fun i => ?_, fun i => ?_, fun i => ?_, fun i => ?_⟩
  · exact real_of_finite (x0 i) (Host.reduce_andi_all _ _ _ _ _ hx0 i)
  · exact real_of_finite (x1 i) (Host.reduce_andi_all _ _ _ _ _ hx1 i)
  · obtain ⟨r, hr⟩ := real_of_finite (x2 i) (Host.reduce_andi_all _ _ _ _ _ hx2 i)
    have hz : x2 i ≠ 0 := ne_zero_of_une (x2 i) (Host.reduce_andi_all _ _ _ _ _ hne i)
    exact ⟨r, hr, fun e => hz (by rw [hr, e, EReal.coe_zero])⟩
  · exact real_of_finite (x3 i) (Host.reduce_andi_all _ _ _ _ _ hx3 i)
  · exact real_of_finite (x4 i) (Host.reduce_andi_all _ _ _ _ _ hx4 i)

end Cert.Anfis.Pre
-- ==== Proof.Law.lean ====
/-
  The mathematics of the fuzzy inference row, over the extended reals.

  Two facts. (1) A Gaussian membership degree of real arguments with a nonzero width is a positive real.
  (2) For real inputs and positive degrees, the rule-by-rule weighted mean equals the factored one: the total strength
  `∑ᵢ∑ⱼ aᵢ bⱼ` is `(∑ a)(∑ b)`, a positive real `S`, division by `S` is multiplication by `S⁻¹`, and then both sides are
  `S⁻¹` times `∑ᵢ∑ⱼ aᵢ bⱼ (x0 w0ᵢⱼ + x1 w1ᵢⱼ + βᵢⱼ)` by distributivity.
-/
import proofs.«160476_j85203561218832_2_alg».proof.Proof.Spec
import Mathlib

noncomputable section

namespace Cert.Anfis

open Idealize.ShloMosaic

/-- A Gaussian degree of real arguments, width nonzero, is the positive real `exp (-((x - μ)/σ)²)`. -/
theorem gauss_coe (x μ σ : ℝ) (hσ : σ ≠ 0) :
    ∃ r : ℝ, 0 < r ∧ gauss (x : EReal) (μ : EReal) (σ : EReal) = (r : EReal) := by
  refine ⟨Real.exp (-(((x - μ) / σ) * ((x - μ) / σ))), Real.exp_pos _, ?_⟩
  unfold gauss
  rw [Ideal.div_coe hσ, ← EReal.coe_sub, ← EReal.coe_mul, ← EReal.coe_mul, ← EReal.coe_neg, Ideal.exp_coe,
    mul_one_div]

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in the reals, over any two finite index types: with `T` standing for the reciprocal of the total
    strength, the weighted sum of the affine proposals is the affine combination of the three factored sums. -/
theorem real_identity {ι κ : Type*} [Fintype ι] [Fintype κ] (x0 x1 T : ℝ) (a : ι → ℝ) (b : κ → ℝ)
    (w0 w1 β : ι → κ → ℝ) :
    ∑ i, ∑ j, (x0 * w0 i j + x1 * w1 i j + β i j) * (a i * b j * T)
      = (x0 * (∑ i, a i * ∑ j, b j * w0 i j) + x1 * (∑ i, a i * ∑ j, b j * w1 i j) + ∑ i, a i * ∑ j, b j * β i j)
          * T := by
  simp only [Finset.mul_sum, Finset.sum_mul, ← Finset.sum_add_distrib, add_mul]
  refine Finset.sum_congr rfl fun i _ => Finset.sum_congr rfl fun j _ => ?_
  ring

/-- For real inputs and positive degrees the rule-by-rule output is the factored output. -/
theorem byRules_eq_factored (x0 x1 : ℝ) (a b : Fin 512 → ℝ) (ha : ∀ i, 0 < a i) (hb : ∀ j, 0 < b j)
    (w0 w1 β : Fin 512 → Fin 512 → ℝ) :
    byRules (x0 : EReal) (x1 : EReal) (fun i => (a i : EReal)) (fun j => (b j : EReal))
        (fun i j => (w0 i j : EReal)) (fun i j => (w1 i j : EReal)) (fun i j => (β i j : EReal))
      = factored (x0 : EReal) (x1 : EReal) (fun i => (a i : EReal)) (fun j => (b j : EReal))
        (fun i j => (w0 i j : EReal)) (fun i j => (w1 i j : EReal)) (fun i j => (β i j : EReal)) := by
  have hSa : 0 < ∑ i, a i := Finset.sum_pos (fun i _ => ha i) Finset.univ_nonempty
  have hSb : 0 < ∑ j, b j := Finset.sum_pos (fun j _ => hb j) Finset.univ_nonempty
  have hS2 : (∑ i, a i) * ∑ j, b j ≠ 0 := (mul_pos hSa hSb).ne'
  have hSS : (∑ i, a i) * ∑ j, b j = ∑ i, ∑ j, a i * b j := Finset.sum_mul_sum _ _ _ _
  have hS1 : ∑ i, ∑ j, a i * b j ≠ 0 := hSS ▸ hS2
  unfold byRules factored
  simp only [← EReal.coe_mul, ← EReal.coe_add, ← coe_sum]
  rw [Ideal.div_coe hS2]
  simp only [Ideal.div_coe hS1, ← EReal.coe_mul, ← EReal.coe_add, ← coe_sum]
  rw [← hSS]
  exact congrArg _ (real_identity x0 x1 _ a b w0 w1 β)

end Cert.Anfis

end
-- ==== Proof.Bridge.lean ====
/-
  The two forms of a row's output agree on real inputs with nonzero widths.

  With every input, centre, width, weight and bias a real number and every width nonzero, `(x - μ) / σ` is a real, so each
  membership degree `exp (-((x - μ) / σ)²)` is a POSITIVE real. The total strength `(∑ a) (∑ b)` is then a positive real,
  dividing by it is multiplying by its reciprocal, and the rule-by-rule weighted mean equals its factored form by
  distributivity in ℝ (`byRules_eq_factored`). Where a width is zero the degrees vanish, the total strength can be zero, and
  the two forms divide zero by zero differently: that is why the claim carries the condition.
-/
import proofs.«160476_j85203561218832_2_alg».proof.Proof.Spec
import proofs.«160476_j85203561218832_2_alg».proof.Proof.Law

noncomputable section

namespace Cert.Anfis

/-- Rule by rule or factored, one value: all entries real, all widths nonzero. The families are indexed as the two programs
    index them (`μ0 i`, `σ0 i` the centre and width of set `i` of input 0; `w0 i j`, `w1 i j`, `β i j` rule `(i, j)`'s
    coefficients). -/
theorem byRules_eq_factored_of_real (x0 x1 : EReal) (μ0 σ0 μ1 σ1 : Fin 512 → EReal) (w0 w1 β : Fin 512 → Fin 512 → EReal)
    (hx0 : ∃ r : ℝ, x0 = (r : EReal)) (hx1 : ∃ r : ℝ, x1 = (r : EReal))
    (hμ0 : ∀ i, ∃ r : ℝ, μ0 i = (r : EReal)) (hσ0 : ∀ i, ∃ r : ℝ, σ0 i = (r : EReal) ∧ r ≠ 0)
    (hμ1 : ∀ j, ∃ r : ℝ, μ1 j = (r : EReal)) (hσ1 : ∀ j, ∃ r : ℝ, σ1 j = (r : EReal) ∧ r ≠ 0)
    (hw0 : ∀ i j, ∃ r : ℝ, w0 i j = (r : EReal)) (hw1 : ∀ i j, ∃ r : ℝ, w1 i j = (r : EReal))
    (hβ : ∀ i j, ∃ r : ℝ, β i j = (r : EReal)) :
    byRules x0 x1 (fun i => gauss x0 (μ0 i) (σ0 i)) (fun j => gauss x1 (μ1 j) (σ1 j)) w0 w1 β
      = factored x0 x1 (fun i => gauss x0 (μ0 i) (σ0 i)) (fun j => gauss x1 (μ1 j) (σ1 j)) w0 w1 β := by
  obtain ⟨r0, rfl⟩ := hx0
  obtain ⟨r1, rfl⟩ := hx1
  -- the degrees are positive reals
  have ha : ∀ i, ∃ r : ℝ, 0 < r ∧ gauss (r0 : EReal) (μ0 i) (σ0 i) = (r : EReal) := fun i => by
    obtain ⟨m, hm⟩ := hμ0 i
    obtain ⟨s, hs, hs0⟩ := hσ0 i
    rw [hm, hs]
    exact gauss_coe r0 m s hs0
  have hb : ∀ j, ∃ r : ℝ, 0 < r ∧ gauss (r1 : EReal) (μ1 j) (σ1 j) = (r : EReal) := fun j => by
    obtain ⟨m, hm⟩ := hμ1 j
    obtain ⟨s, hs, hs0⟩ := hσ1 j
    rw [hm, hs]
    exact gauss_coe r1 m s hs0
  choose a ha using ha
  choose b hb using hb
  choose v0 hv0 using hw0
  choose v1 hv1 using hw1
  choose vb hvb using hβ
  have ea : (fun i => gauss (r0 : EReal) (μ0 i) (σ0 i)) = fun i => (a i : EReal) := funext fun i => (ha i).2
  have eb : (fun j => gauss (r1 : EReal) (μ1 j) (σ1 j)) = fun j => (b j : EReal) := funext fun j => (hb j).2
  have e0 : w0 = fun i j => (v0 i j : EReal) := funext fun i => funext fun j => hv0 i j
  have e1 : w1 = fun i j => (v1 i j : EReal) := funext fun i => funext fun j => hv1 i j
  have e2 : β = fun i j => (vb i j : EReal) := funext fun i => funext fun j => hvb i j
  rw [ea, eb, e0, e1, e2]
  exact byRules_eq_factored r0 r1 a b (fun i => (ha i).1) (fun j => (hb j).1) v0 v1 vb

end Cert.Anfis

end
-- ==== Proof.lean ====
/-
  A fuzzy inference layer computed two ways gives one result.

  For a batch of 256 inputs `(x0, x1)`, each input has 512 Gaussian fuzzy sets (centre `μ`, width `σ`) and there is one rule
  per pair of sets, 512 · 512 of them; rule `(i, j)` fires with strength `exp (-((x0 - μ0 i) / σ0 i)²) · exp (-((x1 - μ1 j) / σ1 j)²)`
  and proposes `x0 · w0 i j + x1 · w1 i j + β i j`; the output is the proposals' mean weighted by the strengths.
  The reference computes it rule by rule over all 262144 rules. The kernel uses that a strength is a product and a proposal is
  affine: the total strength is `(∑ a)(∑ b)` and the weighted sum of proposals is three sums `∑ i, a i · ∑ j, b j · c i j` —
  one matrix product of the degrees of input 1 with the three coefficient tables laid side by side, and weighted row sums.

  On the extended reals the two agree when every argument is a real number and every width is nonzero: then the degrees are
  positive reals, the total strength is a positive real, and the identity is distributivity in ℝ (Proof/Law.lean,
  Proof/Bridge.lean). Finiteness and the nonzero widths are exactly the claim's precondition (Proof/PreReal.lean reads it).
  The reference's result read operation by operation is the rule-by-rule form (Proof/RefRules.lean); the kernel's result
  array is, row by row, the factored form (Proof/KernelResult.lean, over the region's run in Proof/KernelIdealRegion.lean,
  the body's stored value in Proof/Payload.lean and the two host-built arrays in Proof/HostParams.lean, Proof/HostTables.lean).
  Each program also runs to its end without a fault and leaves its five arguments as they were: the kernel programs by
  their region's run (Proof/KernelRegion.lean at the word level, Proof/KernelIdealRegion.lean idealized), the reference by its
  run as a sequence of host operations. The idealized kernel is the word-level kernel's text read on the extended reals, no
  operation rewritten, so there is nothing to preserve.
-/
import proofs.«160476_j85203561218832_2_alg».proof.Defs
import proofs.«160476_j85203561218832_2_alg».proof.Proof.Gen.Kernel
import proofs.«160476_j85203561218832_2_alg».proof.Proof.Gen.Kernel.Skeleton
import proofs.«160476_j85203561218832_2_alg».proof.Proof.Gen.Kernel.Launch
import proofs.«160476_j85203561218832_2_alg».proof.Proof.Gen.Kernel.Points
import proofs.«160476_j85203561218832_2_alg».proof.Proof.Gen.KernelIdeal
import proofs.«160476_j85203561218832_2_alg».proof.Proof.Gen.KernelIdeal.Skeleton
import proofs.«160476_j85203561218832_2_alg».proof.Proof.Gen.KernelIdeal.Launch
import proofs.«160476_j85203561218832_2_alg».proof.Proof.Gen.KernelIdeal.Points
import proofs.«160476_j85203561218832_2_alg».proof.Proof.Gen.ReferenceIdeal
import proofs.«160476_j85203561218832_2_alg».proof.Proof.Gen.ReferenceIdeal.Run
import proofs.«160476_j85203561218832_2_alg».proof.Proof.Gen.ReferenceIdeal.Read
import proofs.«160476_j85203561218832_2_alg».proof.Proof.Gen.Pre_finite_inputs
import proofs.«160476_j85203561218832_2_alg».proof.Proof.KernelRegion
import proofs.«160476_j85203561218832_2_alg».proof.Proof.KernelIdealRegion
import proofs.«160476_j85203561218832_2_alg».proof.Proof.KernelResult
import proofs.«160476_j85203561218832_2_alg».proof.Proof.RefRules
import proofs.«160476_j85203561218832_2_alg».proof.Proof.PreReal
import proofs.«160476_j85203561218832_2_alg».proof.Proof.Bridge
import Idealize.ShloMosaic.Adequacy
import Idealize.ShloMosaic.Init

noncomputable section

namespace Cert.Proof

open Idealize.ShloMosaic Idealize.SL.Sem Idealize.ShloMosaic.ValueIdx Cert.Anfis

/-- Under the precondition the reference's result array is the kernel's function of the arguments: at row `p` the
    reference's term is the rule-by-rule form, the kernel's the factored form, of the same row of inputs, the same centres
    and widths and the same coefficients, all of them real and the widths nonzero. -/
theorem reference_eq_kernel (X : FVec Ideal Cert.KernelIdeal.S256x2 .f32) (mean sigma : FVec Ideal Cert.KernelIdeal.S2x512 .f32)
    (cw : FVec Ideal Cert.KernelIdeal.S262144x2 .f32) (cb : FVec Ideal Cert.KernelIdeal.S262144x1 .f32)
    (hpre : Cert.Pre_finite_inputs.fn (F := Ideal) X mean sigma cw cb = fun _ => 1#1) :
    Cert.ReferenceIdeal.Read.val_main_v33 (F := Ideal) X mean sigma cw cb = Cert.KernelIdeal.Result.outOf X mean sigma cw cb := by
  obtain ⟨hX, hmean, hsigma, hcw, hcb⟩ := Cert.Anfis.Pre.reals_of_pre X mean sigma cw cb hpre
  funext i
  obtain ⟨p, u, rfl⟩ : ∃ (p : Fin 256) (u : Fin 1), i = ix2 p u := ⟨i 0, i 1, eq_ix2 i⟩
  obtain rfl : u = 0 := Fin.ext (by have := u.isLt; omega)
  rw [Cert.Anfis.Ref.ref_row]
  exact byRules_eq_factored_of_real _ _ (fun i => mean (ix2 (0 : Fin 2) i)) (fun i => sigma (ix2 (0 : Fin 2) i))
    (fun j => mean (ix2 (1 : Fin 2) j)) (fun j => sigma (ix2 (1 : Fin 2) j)) _ _ _
    (hX _) (hX _) (fun _ => hmean _) (fun _ => hsigma _) (fun _ => hmean _) (fun _ => hsigma _)
    (fun _ _ => hcw _) (fun _ _ => hcw _) (fun _ _ => hcb _)

/-- The word-level kernel program runs to its end and leaves its arguments unchanged. -/
theorem frame_kernel : Cert.frame_Kernel := fun m ρ _ => Cert.Kernel.Region.frame m ρ

/-- So does the idealized kernel program. -/
theorem frame_kernelIdeal : Cert.frame_KernelIdeal := fun m ρ _ => Cert.KernelIdeal.Region.frame m ρ

/-- So does the reference: its run as a sequence of host operations, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- From memories that agree on the arguments, both idealized programs end with the same result array: the kernel's at the
    factored form of every row (`Result.run`), the reference's at its composed term, which under the precondition is the same
    function of the same arguments (`reference_eq_kernel`). -/
theorem algebraic : Cert.algebraic_KernelIdeal_ReferenceIdeal := by
  intro m ρ m' ρ' hpre hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2]
  exact reference_eq_kernel _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
